-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x256x56x56 .f32) (main_arg1 : FVec F S256x256 .f32) (main_arg2 : FVec F S256 .f32) (main_arg3 : FVec F S256x1 .f32) (main_arg4 : FVec F S1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S64x56x56x256 : Shape := ⟨4, ![64, 56, 56, 256]⟩
abbrev S64x3136x256 : Shape := ⟨3, ![64, 3136, 256]⟩
abbrev S1x256 : Shape := ⟨2, ![1, 256]⟩
abbrev S1x1 : Shape := ⟨2, ![1, 1]⟩
abbrev S64x1 : Shape := ⟨2, ![64, 1]⟩
abbrev S8x3136x256 : Shape := ⟨3, ![8, 3136, 256]⟩
abbrev S8x1 : Shape := ⟨2, ![8, 1]⟩
abbrev S8x256 : Shape := ⟨2, ![8, 256]⟩
abbrev S8 : Shape := ⟨1, ![8]⟩

abbrev nBuf : Space → Nat
  | .hbm => 11
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S64x56x56x256, .f32⟩
  | .hbm, ⟨6, _⟩ => ⟨S64x3136x256, .f32⟩
  | .hbm, ⟨7, _⟩ => ⟨S1x256, .f32⟩
  | .hbm, ⟨8, _⟩ => ⟨S1x256, .f32⟩
  | .hbm, ⟨9, _⟩ => ⟨S1x1, .f32⟩
  | .hbm, ⟨10, _⟩ => ⟨S64x1, .f32⟩
  | .local _ .vmem, ⟨0, _⟩ => ⟨S8x3136x256, .f32⟩
  | .local _ .vmem, ⟨1, _⟩ => ⟨S8x3136x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S8x1, .f32⟩
  | .local _ .vmem, ⟨7, _⟩ => ⟨S8x1, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x3136x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x256x56x56_S64x56x56x256_0_2_3_1 : S64x256x56x56.Transposes [0, 2, 3, 1] S64x56x56x256
  shapeCasts_S64x56x56x256_S64x3136x256 : S64x56x56x256.ShapeCasts S64x3136x256
  shapeCasts_S256_S1x256 : S256.ShapeCasts S1x256
  shapeCasts_S256x1_S1x256 : S256x1.ShapeCasts S1x256
  shapeCasts_S1_S1x1 : S1.ShapeCasts S1x1
  inb_S8x3136x256_S8x3136x256_0_0_0 : ∀ a, (![0, 0, 0] : Fin 3 → Nat) a + S8x3136x256.size a ≤ S8x3136x256.size a
  h_S8x3136x256 : 0 < S8x3136x256.numel
  shapeCasts_S8x3136x256_S8x3136x256 : S8x3136x256.ShapeCasts S8x3136x256
  reduces_S8x3136x256_S8x256 : S8x3136x256.Reduces [1] S8x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  reduces_S8x256_S8 : S8x256.Reduces [1] S8
  shapeCasts_S8_S8x1 : S8.ShapeCasts S8x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3136x256.size a ≤ S64x3136x256.size a
  hwx0_0 : ∀ i : grid0.Coords, EltTy.bits .f32 = 32 ∨ (Rect.block (s := S64x3136x256) S8x3136x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S64x1.size a
  hwx0_5 : ∀ i : grid0.Coords, EltTy.bits .f32 = 32 ∨ (Rect.block (s := S64x1) S8x1.size (cc0_transform_5 i) (hinb0_5 i)).WholeWords (EltTy.packing .f32)

variable [Facts₀]

def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_v1) S8x3136x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S16384x3136 : Shape := ⟨2, ![16384, 3136]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩
abbrev S64x256 : Shape := ⟨2, ![64, 256]⟩
abbrev S1x256 : Shape := ⟨2, ![1, 256]⟩
abbrev S1x1 : Shape := ⟨2, ![1, 1]⟩
abbrev S64x1 : Shape := ⟨2, ![64, 1]⟩

abbrev nBuf : Space → Nat
  | .hbm => 11
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S16384x3136, .f32⟩
  | .hbm, ⟨6, _⟩ => ⟨S16384x1, .f32⟩
  | .hbm, ⟨7, _⟩ => ⟨S64x256, .f32⟩
  | .hbm, ⟨8, _⟩ => ⟨S1x256, .f32⟩
  | .hbm, ⟨9, _⟩ => ⟨S1x1, .f32⟩
  | .hbm, ⟨10, _⟩ => ⟨S64x1, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S64x256, .f32⟩
  | .local _ .vmem, ⟨5, _⟩ => ⟨S256x256, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S64x1, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

class Facts₀ : Prop where
  shapeCasts_S64x256x56x56_S16384x3136 : S64x256x56x56.ShapeCasts S16384x3136
  inb_S512x1_S512x1_0_0 : ∀ a, (![0, 0] : Fin 2 → Nat) a + S512x1.size a ≤ S512x1.size a
  h_S512x1 : 0 < S512x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S512x2048_d1_w32 : S512x2048.Iotas .tc 32 [1]
  shapeCasts_S512x1_S512x1 : S512x1.ShapeCasts S512x1
  reduces_S512x2048_S512 : S512x2048.Reduces [1] S512
  shapeCasts_S512_S512x1 : S512.ShapeCasts S512x1
  shapeCasts_S16384x1_S64x256 : S16384x1.ShapeCasts S64x256
  shapeCasts_S256_S1x256 : S256.ShapeCasts S1x256
  shapeCasts_S1_S1x1 : S1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S16384x3136.size a
  hwx0_0 : ∀ i : grid0.Coords, EltTy.bits .f32 = 32 ∨ (Rect.unit (s := S16384x3136) (fun a => cc0_transform_0 i a * S512x2048.size a) (fun a => (Pipeline.Clip.of (cc0_transform_0 i a) (S512x2048.size a) (S16384x3136.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S16384x3136.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpecClip (Memref.whole main_v0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_arg1) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_arg3) false false (stage1_3 0) (sem1_3 0) (Memref.isWhole_whole _) (hstage1_3 0)

abbrev win1_4 : Pipeline.Window sig grid1 :=
  Pipeline.Window.whole (Memref.whole main_v4) false false (stage1_4 0) (sem1_4 0) (Memref.isWhole_whole _) (hstage1_4 0)

abbrev win1_5 : Pipeline.Window sig grid1 :=
  Pipeline.Window.whole (Memref.whole main_v5) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.Spec.lean ====
/-
  The function both programs compute, over the extended reals, index by index.

  From an activation `x` of shape [64, 256, 56, 56], weights `w1` [256, 256], `b1` [256], `w2` [256, 1], `b2` [1]:
    pooled n k = (∑ over the 3136 = 56·56 spatial positions s of x(n, k, s / 56, s % 56)) · c
    hidden n j = max ((∑ k, pooled n k · w1(k, j)) + b1 j) 0
    logit n    = (∑ j, hidden n j · w2(j, 0)) + b2 0
    alpha(n,0) = 1 / (1 + e^(−logit n))
  where `c` is the one single-precision literal both programs multiply the spatial sum by (the rounding of 1/3136),
  read as the exact binary value it denotes. Spatial position `s` is row `s / 56`, column `s % 56`: the row-major
  position of (h, w) in a 56 × 56 plane, which is how both programs flatten the two spatial axes.
-/
import Idealize.ShloMosaic.PureOps.Ideal
import Idealize.ShloMosaic.PureOps.Ideal.Laws
import Idealize.ShloMosaic.Lib.ValueIdx

noncomputable section

namespace Cert.AlphaSpec

open Idealize.ShloMosaic Idealize.ShloMosaic.ValueIdx
open scoped BigOperators

/-- The activation's, the weights' and the result's index types. -/
abbrev XIdx := (⟨4, ![64, 256, 56, 56]⟩ : Shape).Idx
abbrev W1Idx := (⟨2, ![256, 256]⟩ : Shape).Idx
abbrev B1Idx := (⟨1, ![256]⟩ : Shape).Idx
abbrev W2Idx := (⟨2, ![256, 1]⟩ : Shape).Idx
abbrev B2Idx := (⟨1, ![1]⟩ : Shape).Idx
abbrev OutIdx := (⟨2, ![64, 1]⟩ : Shape).Idx

/-- The literal both programs scale the spatial sum by. -/
def invS : EReal := Ideal.ofBits .f32 0x39A72F05#32

/-- Row and column of spatial position `s` in a 56 × 56 plane. -/
def spRow (s : Fin 3136) : Fin 56 := ⟨s.val / 56, by have := s.isLt; omega⟩
def spCol (s : Fin 3136) : Fin 56 := ⟨s.val % 56, by omega⟩

/-- The activation at sample `n`, channel `k`, spatial position `s`. -/
def xAt (x : XIdx → EReal) (n : Fin 64) (k : Fin 256) (s : Fin 3136) : EReal := x (ix4 n k (spRow s) (spCol s))

/-- The sum over the plane of channel `k` of sample `n`. -/
def planeSum (x : XIdx → EReal) (n : Fin 64) (k : Fin 256) : EReal := ∑ s : Fin 3136, xAt x n k s

/-- The scaled plane sum (the "global average pool"). -/
def pooled (x : XIdx → EReal) (n : Fin 64) (k : Fin 256) : EReal := planeSum x n k * invS

/-- The first layer with its bias, clamped below at zero. -/
def hidden (x : XIdx → EReal) (w1 : W1Idx → EReal) (b1 : B1Idx → EReal) (n : Fin 64) (j : Fin 256) : EReal :=
  max ((∑ k : Fin 256, pooled x n k * w1 (ix2 k j)) + b1 (ix1 j)) 0

/-- The second layer with its bias. -/
def logit (x : XIdx → EReal) (w1 : W1Idx → EReal) (b1 : B1Idx → EReal) (w2 : W2Idx → EReal) (b2 : B2Idx → EReal) (n : Fin 64) : EReal :=
  (∑ j : Fin 256, hidden x w1 b1 n j * w2 (ix2 j (0 : Fin 1))) + b2 (ix1 (0 : Fin 1))

/-- The result array. -/
def alpha (x : XIdx → EReal) (w1 : W1Idx → EReal) (b1 : B1Idx → EReal) (w2 : W2Idx → EReal) (b2 : B2Idx → EReal) : OutIdx → EReal :=
  fun i => Ideal.logistic (logit x w1 b1 w2 b2 (i 0))

end Cert.AlphaSpec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibWeightedRowSum.lean ====
/-
  A row of a matrix summed against a weight row, at the ideal values.

  Take an a × b matrix `x` and a 1 × b weight row `w`. Spread the weight row over all a rows, multiply entry by
  entry, and sum each row from zero. Read at row p the result is Σₖ x(p,k) · w(0,k): the product of row p with the
  weight row. (The weight row may first pass through a reshape to its own shape, which changes nothing.) For any
  extents.
-/
import proofs.«119059_g2000108762910826_pallasbulk_11_6_alg».proof.Proof.LibRowReduce
import Idealize.ShloMosaic.Lib.Pipeline.Value
import Idealize.ShloMosaic.Lib.ValueLayout

noncomputable section

namespace Cert.LibWeightedRowSum

open Idealize.ShloMosaic Idealize.ShloMosaic.ValueIdx
open scoped BigOperators

/-- The sum from zero over each row of `x` times the weight row `w` spread over the rows, at row p, is
    Σₖ x(p,k) · w(0,k). -/
theorem weightedRowSum_apply {a b : Nat} (x : FVec Ideal ⟨2, ![a, b]⟩ .f32) (w : FVec Ideal ⟨2, ![1, b]⟩ .f32)
    (hc : (⟨2, ![1, b]⟩ : Shape).ShapeCasts ⟨2, ![1, b]⟩)
    (hb : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩
        (mulf x (broadcastTo ⟨2, ![a, b]⟩ (shapeCast ⟨2, ![1, b]⟩ w hc) hb)) 0x00000000#32 h hφ hacc (ix1 p)
      = ∑ k : Fin b, x (ix2 p k) * w (ix2 (0 : Fin 1) k) := by
  refine (Cert.LibRowReduce.rowSum_apply _ h hφ hacc p).trans ?_
  refine Finset.sum_congr rfl fun k _ => ?_
  show x (ix2 p k) * broadcastTo ⟨2, ![a, b]⟩ (shapeCast ⟨2, ![1, b]⟩ w hc) hb (ix2 p k) = _
  rw [broadcastTo_1b_ab_apply, shapeCast_self]

end Cert.LibWeightedRowSum

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.KernelValuePayload.lean ====
/-
  The value one grid step stores, read at a row.

  A grid step holds eight samples. From its block X of the activation, [8, 3136, 256] — sample, spatial position,
  channel —, the weights W1 [256, 256], the bias row B1 [1, 256], the second weight row W2 [1, 256] and the scalar
  B2 [1, 1] it computes, for each of its eight rows p,
    pooled p k = (sum over the 3136 positions s of X (p, s, k)) * c,
    hidden p j = max ((sum over k of pooled p k * W1 (k, j)) + B1 (0, j)) 0,
    logit p    = (sum over j of hidden p j * W2 (0, j)) + B2 (0, 0),
  and stores 1 / (1 + e^(-logit p)) at (p, 0). Each stage is read at an index: the sum over the middle axis of a
  rank-3 array is the sum over that axis's coordinates; a product with a matrix into a zero accumulator is the sum over
  the contracted coordinate; a row spread over the eight rows reads its own entry; the zero word is the real 0.
-/
import proofs.«119059_g2000108762910826_pallasbulk_11_6_alg».proof.Proof.Gen.KernelIdeal.Skeleton
import proofs.«119059_g2000108762910826_pallasbulk_11_6_alg».proof.Proof.Spec
import proofs.«119059_g2000108762910826_pallasbulk_11_6_alg».proof.Proof.LibDot
import proofs.«119059_g2000108762910826_pallasbulk_11_6_alg».proof.Proof.LibRowReduce
import proofs.«119059_g2000108762910826_pallasbulk_11_6_alg».proof.Proof.LibWeightedRowSum
import proofs.«119059_g2000108762910826_pallasbulk_11_6_alg».proof.Proof.LibKeepdims
import Idealize.ShloMosaic.Lib.Pipeline.Value
import Idealize.ShloMosaic.Lib.ValueLayout

noncomputable section

namespace Cert.KernelIdeal.KValue

open Cert.KernelIdeal Cert.KernelIdeal.Gen Cert.AlphaSpec
open Idealize.ShloMosaic Idealize.ShloMosaic.ValueIdx
open scoped BigOperators

/-! ## A sum over the middle axis of a rank-3 array -/

/-- The coordinate inserted on axis 1 of an index (p, k) of the reduced array. -/
theorem lift_mid {a b c : Nat} (h : (⟨3, ![a, b, c]⟩ : Shape).Reduces [1] ⟨2, ![a, c]⟩) (p : Fin a) (k : Fin c) (s : Fin b) :
    h.lift (ix2 p k) s = ix3 p s k := by
  funext d; apply Fin.ext
  match d with
  | ⟨0, _⟩ => rfl
  | ⟨1, _⟩ => rfl
  | ⟨2, _⟩ => rfl

/-- The sum from zero over axis 1 of an a × b × c array, at (p, k): the sum over the b middle coordinates. -/
theorem midSum_apply {a b c : Nat} (y : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (k : Fin c) :
    multiReduction .add [1] ⟨2, ![a, c]⟩ y 0x00000000#32 h hφ hacc (ix2 p k) = ∑ s : Fin b, y (ix3 p s k) := by
  refine (Ideal.multiReduction_add_single y _ h hφ hacc (ix2 p k)).trans ?_
  exact Finset.sum_congr rfl fun s _ => congrArg y (lift_mid h p k s)

/-! ## The three stages of a grid step, each at an index -/

/-- The scaled plane sums of a block: at (p, k) the sum over the positions of X (p, s, k), times the literal. -/
theorem pooledBlk_apply (X : FVec Ideal S8x3136x256 .f32) (p : Fin 8) (k : Fin 256) :
    mulf (multiReduction (F := Ideal) .add [1] S8x256 (shapeCast S8x3136x256 X shapeCasts_S8x3136x256_S8x3136x256) 0x00000000#32
          reduces_S8x3136x256_S8x256 (.inl rfl) rfl)
        (broadcast S8x256 (Scalar.ofBits (F := Ideal) .f32 0x39A72F05#32)) (ix2 p k)
      = (∑ s : Fin 3136, X (ix3 p s k)) * invS := by
  rw [mulf_apply, broadcast_apply, shapeCast_self]
  refine congrArg (· * invS) ?_
  exact midSum_apply X reduces_S8x3136x256_S8x256 (.inl rfl) rfl p k

/-- The first layer of a block: at (p, j) the product of row p of Y with column j of W1, plus the bias, clamped at 0. -/
theorem hiddenBlk_apply (Y : FVec Ideal S8x256 .f32) (W1 : FVec Ideal S256x256 .f32) (B1 : FVec Ideal S1x256 .f32)
    (p : Fin 8) (j : Fin 256) :
    maximumf (addf (matmul dot_S8x256_S256x256_S8x256_1_0_0_1_n_n none Y W1 (constant (F := Ideal) S8x256 .f32 0x00000000#32))
          (broadcastTo S8x256 (shapeCast S1x256 B1 shapeCasts_S1x256_S1x256) broadcasts_S1x256_S8x256))
        (broadcast S8x256 (Scalar.ofBits (F := Ideal) .f32 0x00000000#32)) (ix2 p j)
      = max ((∑ k : Fin 256, Y (ix2 p k) * W1 (ix2 k j)) + B1 (ix2 (0 : Fin 1) j)) 0 := by
  rw [maximumf_apply, addf_apply, broadcast_apply, broadcastTo_1b_ab_apply, shapeCast_self]
  refine congrArg₂ max (congrArg (· + B1 (ix2 (0 : Fin 1) j)) ?_) Ideal.ofBits_zero_f32
  exact Cert.LibDot.matmul_zero_apply (m := 8) (k := 256) (n := 256) dot_S8x256_S256x256_S8x256_1_0_0_1_n_n_wf none Y W1 p j

/-- The second layer of a block: at (p, 0) the product of row p of H with the weight row, plus the scalar. -/
theorem logitBlk_apply (H : FVec Ideal S8x256 .f32) (W2 : FVec Ideal S1x256 .f32) (B2 : FVec Ideal S1x1 .f32) (p : Fin 8) :
    addf (shapeCast S8x1 (multiReduction (F := Ideal) .add [1] S8
            (mulf H (broadcastTo S8x256 (shapeCast S1x256 W2 shapeCasts_S1x256_S1x256) broadcasts_S1x256_S8x256)) 0x00000000#32
            reduces_S8x256_S8 (.inl rfl) rfl) shapeCasts_S8_S8x1)
        (broadcastTo S8x1 (shapeCast S1x1 B2 shapeCasts_S1x1_S1x1) broadcasts_S1x1_S8x1) (ix2 p (0 : Fin 1))
      = (∑ j : Fin 256, H (ix2 p j) * W2 (ix2 (0 : Fin 1) j)) + B2 (ix2 (0 : Fin 1) (0 : Fin 1)) := by
  rw [addf_apply, shapeCast_a_a1_apply, broadcastTo_1b_ab_apply, shapeCast_self B2]
  refine congrArg (· + B2 (ix2 (0 : Fin 1) (0 : Fin 1))) ?_
  exact Cert.LibWeightedRowSum.weightedRowSum_apply H W2 shapeCasts_S1x256_S1x256 broadcasts_S1x256_S8x256 reduces_S8x256_S8 (.inl rfl) rfl p

/-! ## What a grid step stores, at row p -/

/-- The stored value at (p, 0), as the nested sums of the step's five blocks. -/
theorem pay_apply (X : Vec Ideal S8x3136x256 .f32) (W1 : Vec Ideal S256x256 .f32) (B1 : Vec Ideal S1x256 .f32)
    (W2 : Vec Ideal S1x256 .f32) (B2 : Vec Ideal S1x1 .f32) (p : Fin 8) :
    k0_pay1 (F := Ideal) X W1 B1 W2 B2 (ix2 p (0 : Fin 1))
      = Ideal.logistic ((∑ j : Fin 256,
            max ((∑ k : Fin 256, ((∑ s : Fin 3136, X (ix3 p s k)) * invS) * W1 (ix2 k j)) + B1 (ix2 (0 : Fin 1) j)) 0
              * W2 (ix2 (0 : Fin 1) j)) + B2 (ix2 (0 : Fin 1) (0 : Fin 1))) := by
  unfold k0_pay1
  refine congrArg Ideal.logistic ((logitBlk_apply _ W2 B2 p).trans ?_)
  refine congrArg (· + B2 (ix2 (0 : Fin 1) (0 : Fin 1))) (Finset.sum_congr rfl fun j _ => ?_)
  refine congrArg (· * W2 (ix2 (0 : Fin 1) j)) ((hiddenBlk_apply _ W1 B1 p j).trans ?_)
  refine congrArg (fun z => max (z + B1 (ix2 (0 : Fin 1) j)) 0) (Finset.sum_congr rfl fun k _ => ?_)
  exact congrArg (· * W1 (ix2 k j)) (pooledBlk_apply X p k)

/-- The same against the specification: when the step's blocks are the argument arrays' entries for sample n — the
    activation block's row p the flattened planes of sample n, the weights themselves, the bias and weight rows the
    vectors' entries — the stored value at (p, 0) is the logistic of sample n's logit. -/
theorem point_value (X : Vec Ideal S8x3136x256 .f32) (W1 : Vec Ideal S256x256 .f32) (B1 : Vec Ideal S1x256 .f32)
    (W2 : Vec Ideal S1x256 .f32) (B2 : Vec Ideal S1x1 .f32)
    (x : XIdx → EReal) (w1 : W1Idx → EReal) (b1 : B1Idx → EReal) (w2 : W2Idx → EReal) (b2 : B2Idx → EReal)
    (p : Fin 8) (n : Fin 64)
    (hX : ∀ (s : Fin 3136) (k : Fin 256), X (ix3 p s k) = xAt x n k s)
    (hW1 : ∀ (k j : Fin 256), W1 (ix2 k j) = w1 (ix2 k j))
    (hB1 : ∀ j : Fin 256, B1 (ix2 (0 : Fin 1) j) = b1 (ix1 j))
    (hW2 : ∀ j : Fin 256, W2 (ix2 (0 : Fin 1) j) = w2 (ix2 j (0 : Fin 1)))
    (hB2 : B2 (ix2 (0 : Fin 1) (0 : Fin 1)) = b2 (ix1 (0 : Fin 1))) :
    k0_pay1 (F := Ideal) X W1 B1 W2 B2 (ix2 p (0 : Fin 1)) = Ideal.logistic (logit x w1 b1 w2 b2 n) := by
  refine (pay_apply X W1 B1 W2 B2 p).trans ?_
  unfold Cert.AlphaSpec.logit Cert.AlphaSpec.hidden Cert.AlphaSpec.pooled Cert.AlphaSpec.planeSum
  simp only [hX, hW1, hB1, hW2, hB2]

end Cert.KernelIdeal.KValue

end
-- ==== Proof.KernelValueHost.lean ====
/-
  What the region finds in the arrays the host prepared.

  Before the one grid region the program transposes the activation x [64, 256, 56, 56] to [64, 56, 56, 256] and
  flattens the two spatial axes: the array the first window reads has, at (n, s, k), the entry x (n, k, s / 56, s % 56)
  — position s of a 56 × 56 plane in row-major order is row s / 56, column s % 56. The bias b1 [256] is viewed as a
  row [1, 256], the second weight w2 [256, 1] as a row [1, 256], and the scalar b2 [1] as [1, 1]: each reads, at its
  one row, the entry of the same position.
-/
import proofs.«119059_g2000108762910826_pallasbulk_11_6_alg».proof.Proof.Gen.KernelIdeal.Frame
import proofs.«119059_g2000108762910826_pallasbulk_11_6_alg».proof.Proof.Spec
import Idealize.ShloMosaic.Lib.Pipeline.Value
import Idealize.ShloMosaic.Lib.ValueLayout

noncomputable section

namespace Cert.KernelIdeal.KValue

open Cert.KernelIdeal Cert.KernelIdeal.Gen Cert.AlphaSpec
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The layout steps at an index, over any arrays -/

/-- The activation transposed to channels-last and its plane flattened, at (n, s, k). -/
theorem xFlat_apply (x : S64x256x56x56.Idx → EReal) (n : Fin 64) (s : Fin 3136) (k : Fin 256) :
    shapeCast S64x3136x256 (transpose S64x56x56x256 [0, 2, 3, 1] x transposes_S64x256x56x56_S64x56x56x256_0_2_3_1)
        shapeCasts_S64x56x56x256_S64x3136x256 (ix3 n s k)
      = xAt x n k s := by
  refine (shapeCast_apply _ _ (ix3 n s k) (ix4 n (spRow s) (spCol s) k) ?_).trans ?_
  · rw [Shape.rowMajor_val_four, Shape.rowMajor_val_three]
    show ((n.val * 56 + s.val / 56) * 56 + s.val % 56) * 256 + k.val = (n.val * 3136 + s.val) * 256 + k.val
    have := s.isLt
    omega
  · refine transpose_apply _ x _ _ (ix4 n k (spRow s) (spCol s)) fun b => ?_
    match b with
    | ⟨0, _⟩ => rfl
    | ⟨1, _⟩ => rfl
    | ⟨2, _⟩ => rfl
    | ⟨3, _⟩ => rfl

/-- A length-256 vector viewed as a row, at (0, j). -/
theorem rowOfVec_apply (b : S256.Idx → EReal) (j : Fin 256) :
    shapeCast S1x256 b shapeCasts_S256_S1x256 (ix2 (0 : Fin 1) j) = b (ix1 j) :=
  shapeCast_apply b _ _ _ (by
    rw [Shape.rowMajor_val_one, Shape.rowMajor_val_two]
    show j.val = 0 * 256 + j.val
    omega)

/-- A column [256, 1] viewed as a row, at (0, j). -/
theorem rowOfCol_apply (w : S256x1.Idx → EReal) (j : Fin 256) :
    shapeCast S1x256 w shapeCasts_S256x1_S1x256 (ix2 (0 : Fin 1) j) = w (ix2 j (0 : Fin 1)) :=
  shapeCast_apply w _ _ _ (by
    rw [Shape.rowMajor_val_two, Shape.rowMajor_val_two]
    show j.val * 1 + 0 = 0 * 256 + j.val
    omega)

/-- A one-entry vector viewed as [1, 1]. -/
theorem oneOfVec_apply (b : S1.Idx → EReal) :
    shapeCast S1x1 b shapeCasts_S1_S1x1 (ix2 (0 : Fin 1) (0 : Fin 1)) = b (ix1 (0 : Fin 1)) :=
  shapeCast_apply b _ _ _ (by
    rw [Shape.rowMajor_val_one, Shape.rowMajor_val_two]
    rfl)

/-! ## The arrays at region entry -/

/-- The first window's array: the activation, channels last, planes flattened. -/
theorem V_x (c : Dev nD) :
    (V m c main_v1 : S64x3136x256.Idx → EReal)
      = shapeCast S64x3136x256 (transpose S64x56x56x256 [0, 2, 3, 1] (m ((c : Thread nD τ).loc main_arg0) : S64x256x56x56.Idx → EReal)
          transposes_S64x256x56x56_S64x56x56x256_0_2_3_1) shapeCasts_S64x56x56x256_S64x3136x256 := by
  dsimp only [Gen.V, Gen.hostOps0]; after_results; rfl

/-- The third window's array: the first bias as a row. -/
theorem V_b1 (c : Dev nD) :
    (V m c main_v2 : S1x256.Idx → EReal)
      = shapeCast S1x256 (m ((c : Thread nD τ).loc main_arg2) : S256.Idx → EReal) shapeCasts_S256_S1x256 := by
  dsimp only [Gen.V, Gen.hostOps0]; after_results; rfl

/-- The fourth window's array: the second weight as a row. -/
theorem V_w2 (c : Dev nD) :
    (V m c main_v3 : S1x256.Idx → EReal)
      = shapeCast S1x256 (m ((c : Thread nD τ).loc main_arg3) : S256x1.Idx → EReal) shapeCasts_S256x1_S1x256 := by
  dsimp only [Gen.V, Gen.hostOps0]; after_results; rfl

/-- The fifth window's array: the second bias as [1, 1]. -/
theorem V_b2 (c : Dev nD) :
    (V m c main_v4 : S1x1.Idx → EReal)
      = shapeCast S1x1 (m ((c : Thread nD τ).loc main_arg4) : S1.Idx → EReal) shapeCasts_S1_S1x1 := by
  dsimp only [Gen.V, Gen.hostOps0]; after_results; rfl

/-! ## The same, at an index -/

theorem V_x_apply (c : Dev nD) (n : Fin 64) (s : Fin 3136) (k : Fin 256) :
    (V m c main_v1 : S64x3136x256.Idx → EReal) (ix3 n s k) = xAt (m ((c : Thread nD τ).loc main_arg0)) n k s := by
  rw [V_x]; exact xFlat_apply _ n s k

theorem V_b1_apply (c : Dev nD) (j : Fin 256) :
    (V m c main_v2 : S1x256.Idx → EReal) (ix2 (0 : Fin 1) j) = (m ((c : Thread nD τ).loc main_arg2) : S256.Idx → EReal) (ix1 j) := by
  rw [V_b1]; exact rowOfVec_apply _ j

theorem V_w2_apply (c : Dev nD) (j : Fin 256) :
    (V m c main_v3 : S1x256.Idx → EReal) (ix2 (0 : Fin 1) j) = (m ((c : Thread nD τ).loc main_arg3) : S256x1.Idx → EReal) (ix2 j (0 : Fin 1)) := by
  rw [V_w2]; exact rowOfCol_apply _ j

theorem V_b2_apply (c : Dev nD) :
    (V m c main_v4 : S1x1.Idx → EReal) (ix2 (0 : Fin 1) (0 : Fin 1)) = (m ((c : Thread nD τ).loc main_arg4) : S1.Idx → EReal) (ix1 (0 : Fin 1)) := by
  rw [V_b2]; exact oneOfVec_apply _

end Cert.KernelIdeal.KValue

end
-- ==== Proof.KernelValue.lean ====
/-
  The kernel's result array, as one function of its arguments.

  The grid has eight steps; step t works on samples 8 t … 8 t + 7. Its activation block is rows 8 t … 8 t + 7 of the
  flattened activation (all 3136 positions, all 256 channels), the other four blocks are the whole weight, bias and
  row arrays at every step, and it writes rows 8 t … 8 t + 7 of the [64, 1] result. So what step t writes back is
  block t of the array whose entry (n, 0) is the logistic of sample n's logit; the eight blocks cover the 64 rows
  (row n lies in the block of step n / 8), hence after the run the result array is that array, and the arguments are
  as launched.
-/
import proofs.«119059_g2000108762910826_pallasbulk_11_6_alg».proof.Defs
import proofs.«119059_g2000108762910826_pallasbulk_11_6_alg».proof.Proof.Gen.KernelIdeal.Frame
import proofs.«119059_g2000108762910826_pallasbulk_11_6_alg».proof.Proof.Gen.KernelIdeal.Value
import proofs.«119059_g2000108762910826_pallasbulk_11_6_alg».proof.Proof.Spec
import proofs.«119059_g2000108762910826_pallasbulk_11_6_alg».proof.Proof.KernelValuePayload
import proofs.«119059_g2000108762910826_pallasbulk_11_6_alg».proof.Proof.KernelValueHost
import Idealize.ShloMosaic.Lib.Pipeline.Value
import Idealize.ShloMosaic.Lib.Tactic

noncomputable section

namespace Cert.KernelIdeal.KValue

open Cert.KernelIdeal Cert.KernelIdeal.Gen Cert.AlphaSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block each window reads or writes at step t, decided over the eight steps: the activation's and the result's
    block index on axis 0 is t, every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at step t, as entries of the arrays the region finds -/

/-- Row p of the activation block at step t is row 8 t + p of the flattened activation. -/
theorem iblk0_apply (c : Dev nD) (t : Fin cfg0.N) (p : Fin 8) (s : Fin 3136) (k : Fin 256) (n : Fin 64)
    (hn : n.val = t.val * 8 + p.val) :
    (iblk m c 0 t : Vec Ideal S8x3136x256 .f32) (ix3 p s k) = (V m c main_v1 : S64x3136x256.Idx → EReal) (ix3 n s k) := by
  obtain ⟨e0, e1, e2, -⟩ := idx_facts t
  show V m c main_v1 (((cfg0.win 0).blk t).view.emb (ix3 p s k)) = V m c main_v1 (ix3 n s k)
  refine congrArg (V m c main_v1) (funext fun a => Fin.ext ?_)
  match a with
  | ⟨0, _⟩ => show win0_0.index t (0 : Fin 3) * 8 + 1 * p.val = n.val; omega
  | ⟨1, _⟩ => show win0_0.index t (1 : Fin 3) * 3136 + 1 * s.val = s.val; omega
  | ⟨2, _⟩ => show win0_0.index t (2 : Fin 3) * 256 + 1 * k.val = k.val; omega

/-- The first weight's block is the whole array at every step. -/
theorem iblk1_apply (c : Dev nD) (t : Fin cfg0.N) (k j : Fin 256) :
    (iblk m c 1 t : Vec Ideal S256x256 .f32) (ix2 k j) = (m ((c : Thread nD τ).loc main_arg1) : S256x256.Idx → EReal) (ix2 k j) := by
  obtain ⟨-, -, -, e0, e1, -⟩ := idx_facts t
  show V m c main_arg1 (((cfg0.win 1).blk t).view.emb (ix2 k j)) = _
  refine (congrArg (V m c main_arg1) (funext fun a => Fin.ext ?_)).trans (congrFun (V_main_arg1 m c) (ix2 k j))
  match a with
  | ⟨0, _⟩ => show win0_1.index t (0 : Fin 2) * 256 + 1 * k.val = k.val; omega
  | ⟨1, _⟩ => show win0_1.index t (1 : Fin 2) * 256 + 1 * j.val = j.val; omega

/-- The bias row's block is the whole row at every step. -/
theorem iblk2_apply (c : Dev nD) (t : Fin cfg0.N) (j : Fin 256) :
    (iblk m c 2 t : Vec Ideal S1x256 .f32) (ix2 (0 : Fin 1) j) = (V m c main_v2 : S1x256.Idx → EReal) (ix2 (0 : Fin 1) j) := by
  obtain ⟨-, -, -, -, -, e0, e1, -⟩ := idx_facts t
  show V m c main_v2 (((cfg0.win 2).blk t).view.emb (ix2 (0 : Fin 1) j)) = _
  refine congrArg (V m c main_v2) (funext fun a => Fin.ext ?_)
  match a with
  | ⟨0, _⟩ => show win0_2.index t (0 : Fin 2) * 1 + 1 * 0 = 0; omega
  | ⟨1, _⟩ => show win0_2.index t (1 : Fin 2) * 256 + 1 * j.val = j.val; omega

/-- The second weight row's block is the whole row at every step. -/
theorem iblk3_apply (c : Dev nD) (t : Fin cfg0.N) (j : Fin 256) :
    (iblk m c 3 t : Vec Ideal S1x256 .f32) (ix2 (0 : Fin 1) j) = (V m c main_v3 : S1x256.Idx → EReal) (ix2 (0 : Fin 1) j) := by
  obtain ⟨-, -, -, -, -, -, -, e0, e1, -⟩ := idx_facts t
  show V m c main_v3 (((cfg0.win 3).blk t).view.emb (ix2 (0 : Fin 1) j)) = _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 256 + 1 * j.val = j.val; omega

/-- The scalar's block is the whole [1, 1] array at every step. -/
theorem iblk4_apply (c : Dev nD) (t : Fin cfg0.N) :
    (iblk m c 4 t : Vec Ideal S1x1 .f32) (ix2 (0 : Fin 1) (0 : Fin 1)) = (V m c main_v4 : S1x1.Idx → EReal) (ix2 (0 : Fin 1) (0 : Fin 1)) := by
  obtain ⟨-, -, -, -, -, -, -, -, -, e0, e1, -⟩ := idx_facts t
  show V m c main_v4 (((cfg0.win 4).blk t).view.emb (ix2 (0 : Fin 1) (0 : Fin 1))) = _
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## What step t writes back -/

/-- The result array as the specification gives it, of core c's arguments as launched. -/
abbrev result (c : Dev nD) : Buf (Elt Ideal) ((c : Thread nD τ).loc main_v5) :=
  alpha (m ((c : Thread nD τ).loc main_arg0)) (m ((c : Thread nD τ).loc main_arg1)) (m ((c : Thread nD τ).loc main_arg2))
    (m ((c : Thread nD τ).loc main_arg3)) (m ((c : Thread nD τ).loc main_arg4))

/-- Step t writes back rows 8 t … 8 t + 7 of the result. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero hz2]
  simp only [View.ld_unit_zero (S := S8x3136x256) hz3, View.ld_unit_zero (S := S256x256) hz2,
    View.ld_unit_zero (S := S1x256) hz2, View.ld_unit_zero (S := S1x1) hz2]
  funext y
  obtain ⟨p, q, rfl⟩ : ∃ (p : Fin 8) (q : Fin 1), y = ix2 p q := ⟨y 0, y 1, eq_ix2 y⟩
  obtain rfl : q = 0 := Subsingleton.elim _ _
  have hN : cfg0.N = 8 := N_0
  have ht : t.val < 8 := hN ▸ t.isLt
  obtain ⟨-, -, -, -, -, -, -, -, -, -, -, e0, e1⟩ := idx_facts t
  have hn : ((cfg0.win 5).blk t).view.emb (ix2 p (0 : Fin 1)) = ix2 (⟨t.val * 8 + p.val, by omega⟩ : Fin 64) (0 : Fin 1) := by
    funext a; apply Fin.ext
    match a with
    | ⟨0, _⟩ => show win0_5.index t (0 : Fin 2) * 8 + 1 * p.val = t.val * 8 + p.val; omega
    | ⟨1, _⟩ => show win0_5.index t (1 : Fin 2) * 1 + 1 * 0 = 0; omega
  show k0_pay1 (iblk m c 0 t) (iblk m c 1 t) (iblk m c 2 t) (iblk m c 3 t) (iblk m c 4 t) (ix2 p (0 : Fin 1))
      = result m c (((cfg0.win 5).blk t).view.emb (ix2 p (0 : Fin 1)))
  rw [hn]
  refine point_value (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) p ⟨t.val * 8 + p.val, by omega⟩ ?_ ?_ ?_ ?_ ?_
  · intro s k; exact (iblk0_apply m c t p s k _ rfl).trans (V_x_apply m c _ s k)
  · intro k j; exact iblk1_apply m c t k j
  · intro j; exact (iblk2_apply m c t j).trans (V_b1_apply m c j)
  · intro j; exact (iblk3_apply m c t j).trans (V_w2_apply m c j)
  · exact (iblk4_apply m c t).trans (V_b2_apply m c)

/-! ## The eight blocks cover the result -/

/-- An index of the result is in step t's block iff each coordinate is in the block's range on its axis. -/
theorem mem_blk (t : Fin cfg0.N) (i : S64x1.Idx) :
    i ∈ ((cfg0.win 5).blk t).view.set ↔ ∀ a : Fin 2, win0_5.index t a * S8x1.size a ≤ (i a).val ∧ (i a).val < win0_5.index t a * S8x1.size a + S8x1.size a := by
  show i ∈ ((View.whole main_v5).slice (win0_5.rect t)).set ↔ _
  rw [View.set_slice_whole, Rect.mem_set_unit]
  exact Iff.rfl

/-- Row n of the result lies in the block of step n / 8, and every step writes back. -/
theorem cover (i : S64x1.Idx) : ∃ t : Fin cfg0.N, (cfg0.win 5).flush t = true ∧ i ∈ ((cfg0.win 5).blk t).view.set := by
  have hN : cfg0.N = 8 := N_0
  have hi0 : (i 0).val < 64 := (i 0).isLt
  have hi1 : (i 1).val < 1 := (i 1).isLt
  obtain ⟨-, -, -, -, -, -, -, -, -, -, -, e0, e1⟩ := idx_facts (⟨(i 0).val / 8, by rw [hN]; omega⟩ : Fin cfg0.N)
  refine ⟨⟨(i 0).val / 8, by rw [hN]; omega⟩, flush0_5 _, ?_⟩
  rw [mem_blk]
  intro a
  match a with
  | ⟨0, _⟩ =>
    show win0_5.index ⟨(i 0).val / 8, _⟩ (0 : Fin 2) * 8 ≤ (i 0).val ∧ (i 0).val < win0_5.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_5.index ⟨(i 0).val / 8, _⟩ (1 : Fin 2) * 1 ≤ (i 1).val ∧ (i 1).val < win0_5.index ⟨(i 0).val / 8, _⟩ (1 : Fin 2) * 1 + 1
    rw [e1]; omega

/-- After the run the result array is the specification's function of the arguments. -/
theorem final (c : Dev nD) : (dats m 0 c).arrAt 5 cfg0.N = result m c :=
  (dats m 0 c).arrAt_eq_of_cover 5 (result m c) (fun t _ => flushed_eq m c t) cover

/-! ## The run -/

/-- Every weakly fair execution of the program terminates with the result array at the specification's function of the
    arguments and the arguments as launched. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5)
        = Cert.AlphaSpec.alpha (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun r h c => ⟨(h c).1.trans (final m c), (h c).2⟩) (Cert.KernelIdeal.Value.run_blocks m ρ)

end Cert.KernelIdeal.KValue

end
-- ==== Proof.RefRegion0Runs.lean ====
/-
  The first kernel region of the reference program: the pooling kernel on a 32 × 2 grid. Point (r, s) handles rows
  512·r … 512·r + 511 of the activation flattened to 16384 × 3136 and spatial tile s (columns 2048·s … 2048·s + 2047,
  of which only those below 3136 exist: tile 1 overhangs the array and is cut). The result block of 512 row sums is kept
  in its staging buffer across the two tiles of a row block. The body has two control cases, by the tile:
    tile 0: store zeros; load the tile and the zeros back; store zeros + (masked row sums of the tile);
    tile 1: load the tile and what tile 0 left; store that + (masked row sums); load it back; store it times the scale.
  This module runs the body once per case on whole staging memrefs, the pieces each case leaves found by the run.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's branch conditions, from the grid coordinates -/

/-- "The spatial tile is tile 0": the first conditional's condition. -/
abbrev condReset (i : grid0.Coords) : Prop := (Scalar.cmpi .ne (Scalar.extui (Scalar.cmpi .eq (BitVec.ofNat 32 (i 1).val) 0#32)) 0#32) = 1#1
/-- "The spatial tile is tile 1" (the last): the second conditional's condition. -/
abbrev condScale (i : grid0.Coords) : Prop := (Scalar.cmpi .ne (Scalar.extui (Scalar.cmpi .eq (BitVec.ofNat 32 (i 1).val) 1#32)) 0#32) = 1#1

/-- Points are numbered row block by row block, tile 0 before tile 1: the even points are the tile-0 points. -/
theorem hcondReset : ∀ t : Fin cfg0.N, condReset (grid0.coords t) ↔ t.val % 2 = 0 :=
  (by decide +kernel : ∀ t : Fin grid0.N, condReset (grid0.coords t) ↔ t.val % 2 = 0)
theorem hcondScale : ∀ t : Fin cfg0.N, condScale (grid0.coords t) ↔ t.val % 2 = 1 :=
  (by decide +kernel : ∀ t : Fin grid0.N, condScale (grid0.coords t) ↔ t.val % 2 = 1)

/-- Each window's current staging memref at point `t`, spelled as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)

/-- One staging buffer of the result window, through which its contents are stated. -/
abbrev VO : View sig .tc .vmem S512x1 .f32 := (Memref.whole cc0_stg1_0 : Memref sig .tc .vmem S512x1 .f32).view

set_option maxHeartbeats 1000000 in
/-- The body at a tile-0 point: the tile's buffer unchanged, the result's buffer with the case's pieces written. -/
noncomputable def runTile0 (c : Dev nD) (i : grid0.Coords) (arg2 : Memref sig .tc .vmem S512x2048 .f32) (harg2 : arg2.IsWhole)
    (arg3 : Memref sig .tc .vmem S512x1 .f32) (harg3 : arg3.IsWhole) (hc0 : condReset i) (hc1 : ¬condScale i)
    (x0 : Vec F S512x2048 .f32) :
    { L1 : List (View.Piece (Elt F) S512x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel_body i arg2 harg2 arg3 harg3) K } := by
  refine ⟨?_, fun E K => ?run⟩
  case run =>
    simp only [cc0__pool_kernel_body_eq_skeleton]; unfold cc0__pool_kernel_body_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

set_option maxHeartbeats 1000000 in
/-- The body at a tile-1 point, the result's buffer arriving at `xo1` (what tile 0 left). -/
noncomputable def runTile1 (c : Dev nD) (i : grid0.Coords) (arg2 : Memref sig .tc .vmem S512x2048 .f32) (harg2 : arg2.IsWhole)
    (arg3 : Memref sig .tc .vmem S512x1 .f32) (harg3 : arg3.IsWhole) (hc0 : ¬condReset i) (hc1 : condScale i)
    (x0 : Vec F S512x2048 .f32) (xo1 : Vec F S512x1 .f32) :
    { L1 : List (View.Piece (Elt F) S512x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__pool_kernel_body i arg2 harg2 arg3 harg3) K } := by
  refine ⟨?_, fun E K => ?run⟩
  case run =>
    simp only [cc0__pool_kernel_body_eq_skeleton]; unfold cc0__pool_kernel_body_skel
    unfold owns
    iintro ⟨⟨%f0, %hf0, H0⟩, ⟨%f1, %hf1, H1⟩, Hk⟩
    obtain rfl := harg2.eq_unread hf0
    obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.ReferenceIdeal.Ref

end
-- ==== Proof.RefRegion0.lean ====
/-
  The pooling region's proof data and body obligation, at the extended reals.

  What the staging buffers hold after the body at point t = 2·r + s (row block r, spatial tile s):
    the tile's buffer: the array's 512 × 2048 block there, cut at the array's last column (tile 1 has 1088 columns
      inside the array); past the cut the fetch leaves words nothing names, and the body's mask never lets them through;
    the result's buffer: at a tile-0 point, zeros plus the masked row sums of tile 0; at a tile-1 point, that plus the masked
      row sums of tile 1, times the scale. The result window keeps its buffer between the two tiles of a row block and is
      written back after tile 1.
  The masked row sums read a tile's buffer only at columns that exist in the array (`MaskedRead`), so they are the same
  for every filling of the part past the cut: that is what lets the proof data name the result without naming the filling.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import proofs.«119059_g2000108762910826_pallasbulk_11_6_alg».proof.Proof.RefRegion0Runs
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! ## What each case leaves in the result's buffer, as payload terms -/

theorem coverTile0 (c : Dev nD) (i : grid0.Coords) (arg2 : Memref sig .tc .vmem S512x2048 .f32) (harg2 : arg2.IsWhole)
    (arg3 : Memref sig .tc .vmem S512x1 .f32) (harg3 : arg3.IsWhole) (hc0 : condReset i) (hc1 : ¬condScale i)
    (x0 : Vec F S512x2048 .f32) (y : S512x1.Idx) :
    ∃ pc ∈ (runTile0 c i arg2 harg2 arg3 harg3 hc0 hc1 x0).1, y ∈ pc.1.set :=
  View.cover_of_tiledL (runTile0 c i arg2 harg2 arg3 harg3 hc0 hc1 x0).1 S512x1.size (by sl_kernel_rfl) y

/-- At a tile-0 point the result's buffer ends at zeros plus the tile's masked row sums. -/
theorem canonTile0 (c : Dev nD) (i : grid0.Coords) (arg2 : Memref sig .tc .vmem S512x2048 .f32) (harg2 : arg2.IsWhole)
    (arg3 : Memref sig .tc .vmem S512x1 .f32) (harg3 : arg3.IsWhole) (hc0 : condReset i) (hc1 : ¬condScale i)
    (x0 : Vec F S512x2048 .f32) :
    View.canon (runTile0 c i arg2 harg2 arg3 harg3 hc0 hc1 x0).1 = k0_pay2 i x0 (k0_pay1 (F := F)) := by
  unfold runTile0
  dsimp only
  have hz : (![0, 0] : Fin 2 → Nat) = fun _ => 0 := funext fun a => by fin_cases a <;> rfl
  sl_unfold_words
  rw [View.canon_cons_unit_zero (S := S512x1) hz, View.readCov_unit_zero (S := S512x1) _ hz]
  simp only [View.readAt_eq_ld, harg2.read_unread, View.ld_unit_zero (S := S512x2048) hz]

theorem coverTile1 (c : Dev nD) (i : grid0.Coords) (arg2 : Memref sig .tc .vmem S512x2048 .f32) (harg2 : arg2.IsWhole)
    (arg3 : Memref sig .tc .vmem S512x1 .f32) (harg3 : arg3.IsWhole) (hc0 : ¬condReset i) (hc1 : condScale i)
    (x0 : Vec F S512x2048 .f32) (xo1 : Vec F S512x1 .f32) (y : S512x1.Idx) :
    ∃ pc ∈ (runTile1 c i arg2 harg2 arg3 harg3 hc0 hc1 x0 xo1).1, y ∈ pc.1.set :=
  View.cover_of_tiledL (runTile1 c i arg2 harg2 arg3 harg3 hc0 hc1 x0 xo1).1 S512x1.size (by sl_kernel_rfl) y

/-- At a tile-1 point it ends at (what tile 0 left plus the tile's masked row sums) times the scale. -/
theorem canonTile1 (c : Dev nD) (i : grid0.Coords) (arg2 : Memref sig .tc .vmem S512x2048 .f32) (harg2 : arg2.IsWhole)
    (arg3 : Memref sig .tc .vmem S512x1 .f32) (harg3 : arg3.IsWhole) (hc0 : ¬condReset i) (hc1 : condScale i)
    (x0 : Vec F S512x2048 .f32) (xo1 : Vec F S512x1 .f32) :
    View.canon (runTile1 c i arg2 harg2 arg3 harg3 hc0 hc1 x0 xo1).1 = k0_pay3 (k0_pay2 i x0 xo1) := by
  unfold runTile1
  dsimp only
  have hz : (![0, 0] : Fin 2 → Nat) = fun _ => 0 := funext fun a => by fin_cases a <;> rfl
  sl_unfold_words
  rw [View.canon_cons_unit_zero (S := S512x1) hz, View.readCov_unit_zero (S := S512x1) _ hz]
  simp only [View.readAt_eq_ld, harg2.read_unread, harg3.read_unread, View.ld_unit_zero (S := S512x2048) hz,
    View.ld_unit_zero (S := S512x1) hz]

/-! ## The cut of the tile window -/

/-- The part of a tile's block that lies inside the array: all 512 rows; all 2048 columns of tile 0, the first 1088 of tile 1. -/
theorem xsize_tile : ∀ t : Fin cfg0.N, win0_0.xsize (grid0.coords t) 0 = 512
    ∧ win0_0.xsize (grid0.coords t) 1 = (if (grid0.coords t 1).val = 0 then 2048 else 1088) :=
  (by decide +kernel : ∀ t : Fin grid0.N, win0_0.xsize (grid0.coords t) 0 = 512
    ∧ win0_0.xsize (grid0.coords t) 1 = (if (grid0.coords t 1).val = 0 then 2048 else 1088))

theorem tile_lt_two : ∀ t : Fin cfg0.N, (grid0.coords t 1).val < 2 :=
  (by decide +kernel : ∀ t : Fin grid0.N, (grid0.coords t 1).val < 2)

/-- Two fillings of a tile's buffer around the same fetched block agree at every column that exists in the array. -/
theorem fill_agree {α : Type} (t : Fin cfg0.N) (d d' : S512x2048.Idx → α) (g : (win0_0.xblock (grid0.coords t)).Idx → α)
    (p : Fin 512) (l : Fin 2048) (h : l.val + 2048 * (grid0.coords t 1).val < 3136) :
    win0_0.fill (grid0.coords t) d g (ix2 p l) = win0_0.fill (grid0.coords t) d' g (ix2 p l) := by
  have hs := tile_lt_two t
  have hm : win0_0.moved (grid0.coords t) (ix2 p l) = true := (win0_0.moved_iff _ _).mpr fun a => by
    match a with
    | ⟨0, _⟩ => show p.val < win0_0.xsize (grid0.coords t) 0; rw [(xsize_tile t).1]; exact p.isLt
    | ⟨1, _⟩ => show l.val < win0_0.xsize (grid0.coords t) 1; rw [(xsize_tile t).2]; split <;> omega
  unfold Window.fill; rw [dif_pos hm, dif_pos hm]

/-! ## The proof data -/

/-- The body's accumulation step reads a tile's buffer only at the columns that exist in the array. -/
def MaskedRead : Prop :=
  ∀ (i : grid0.Coords) (X X' : Vec Ideal S512x2048 .f32) (acc : Vec Ideal S512x1 .f32),
    (∀ (p : Fin 512) (l : Fin 2048), l.val + 2048 * (i 1).val < 3136 → X (ix2 p l) = X' (ix2 p l)) →
    k0_pay2 i X acc = k0_pay2 i X' acc

section Region0

variable (V : (c : Dev nD) → (b : Ref sig .tc) → Buf (Elt Ideal) ((c : Thread nD τ).loc b))

/-- The tile at point `t` as the fetch reads it: its part inside the array. -/
def xblk (c : Dev nD) (t : Fin cfg0.N) : (win0_0.xblock (grid0.coords t)).Idx → Elt Ideal .f32 :=
  (win0_0.blk t).view.read (Elt Ideal) (V c (Pipeline.arrRef spec0 0))

/-- The tile's buffer after the body, stated on the part inside the array and filled out with zeros. -/
def tileAt (c : Dev nD) (t : Fin cfg0.N) : S512x2048.Idx → Elt Ideal .f32 :=
  win0_0.fill (grid0.coords t) (fun _ => (0 : EReal)) (xblk V c t)

/-- Zeros plus the masked row sums of the tile at `t`. -/
def sumTile0 (c : Dev nD) (t : Fin cfg0.N) : Vec Ideal S512x1 .f32 :=
  k0_pay2 (grid0.coords t) (tileAt V c t) (k0_pay1 (F := Ideal))

/-- The result's buffer after the body at `t`. -/
def resAt (c : Dev nD) (t : Fin cfg0.N) : Vec Ideal S512x1 .f32 :=
  if t.val % 2 = 0 then sumTile0 V c t
  else k0_pay3 (k0_pay2 (grid0.coords t) (tileAt V c t) (sumTile0 V c ⟨t.val - 1, Nat.lt_of_le_of_lt (Nat.sub_le _ _) t.isLt⟩))

/-- The proof data of the pooling region on core `c`. -/
def dat0 (c : Dev nD) : Dat τ (Elt Ideal) Unit ℕ (UR sig nD τ) ℕ cfg0 c where
  A w := V c (Pipeline.arrRef spec0 w)
  after w t := match w with
    | ⟨0, _⟩ => tileAt V c t
    | ⟨1, _⟩ => resAt V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = tileAt V c t := by dsimp only [dat0]
theorem after0_1 (c : Dev nD) (t : Fin cfg0.N) : (dat0 V c).after 1 t = resAt V c t := by dsimp only [dat0]

/-- The tile's buffer when the body runs: just fetched, the block on the part inside the array, anything past it. -/
theorem before0_0 (c : Dev nD) (t : Fin cfg0.N) (d) :
    (dat0 V c).before 0 t d = win0_0.fill (grid0.coords t) d (xblk V c t) := by
  unfold Dat.before; rw [if_pos (fetch0_0 t)]; unfold Dat.fetched Dat.blockOf xblk; rw [A_eq0]

/-- The result's buffer when the body runs at a tile-0 point: anything (the first point, or just written back). -/
theorem before0_1_tile0 (c : Dev nD) (t : Fin cfg0.N) (h0 : t.val % 2 = 0) (d) : (dat0 V c).before 1 t d = d :=
  Dat.before_out_reset _ 1 rfl t (by
    by_cases h : t.val = 0
    · exact .inl h
    · exact .inr ⟨h, (flush0_1 _).mpr (by dsimp only; omega)⟩) d

/-- At a tile-1 point: what the tile-0 point before it left. -/
theorem before0_1_tile1 (c : Dev nD) (t : Fin cfg0.N) (h1 : t.val % 2 = 1) (d) :
    (dat0 V c).before 1 t d = sumTile0 V c ⟨t.val - 1, Nat.lt_of_le_of_lt (Nat.sub_le _ _) t.isLt⟩ := by
  rw [Dat.before_out_kept _ 1 rfl t (by omega) (Bool.eq_false_iff.mpr fun h => by have := (flush0_1 _).mp h; dsimp only at this; omega)
    (fun _ => rfl) (fun _ _ => rfl)]
  rw [after0_1]; unfold resAt; rw [if_pos (by dsimp only; omega)]

/-! ## The body obligation -/

set_option maxHeartbeats 1000000 in
theorem body_obligation0 (hM : MaskedRead) (c : Dev nD) :
    BodyObligationLoose (dat0 V c) (defs₀ (F := Ideal)) Variants.none () Set.univ := fun t => by
  rw [bigSep_W0, bigSep_W0]
  simp only
  have hcut : win0_0.cut (grid0.coords t) (tileAt V c t) = xblk V c t := win0_0.cut_fill _ _ _
  have hfill : ∀ (d0 : S512x2048.Idx → Elt Ideal .f32) (acc : Vec Ideal S512x1 .f32),
      k0_pay2 (grid0.coords t) (win0_0.fill (grid0.coords t) d0 (xblk V c t)) acc = k0_pay2 (grid0.coords t) (tileAt V c t) acc :=
    fun d0 acc => hM _ _ _ acc fun p l h => fill_agree t _ _ _ p l h
  rw [show (dat0 V c).Φ t.succ = (dat0 V c).Φ t.castSucc from rfl,
    show (dat0 V c).owesAt () t.succ = (dat0 V c).owesAt () t.castSucc from rfl,
    after0_0, after0_1, hcut]
  iintro ⟨HΦ, Ho, ⟨%d0, H0⟩, ⟨%d1, H1⟩⟩
  rw [before0_0 V c t d0]
  by_cases h0 : t.val % 2 = 0
  · have hc0 : condReset (grid0.coords t) := (hcondReset t).mpr h0
    have hc1 : ¬condScale (grid0.coords t) := fun h => by have := (hcondScale t).mp h; omega
    iapply ((runTile0 c (grid0.coords t) (ms0_0 t) (hs0_0 t) (ms0_1 t) (hs0_1 t) hc0 hc1 (win0_0.fill (grid0.coords t) d0 (xblk V c t))).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    rw [View.read_writes_eq_canon _ _ _ (coverTile0 c _ _ _ _ _ hc0 hc1 _), canonTile0, hfill]
    unfold resAt; rw [if_pos h0]; rfl
  · have h1 : t.val % 2 = 1 := by omega
    have hc0 : ¬condReset (grid0.coords t) := fun h => h0 ((hcondReset t).mp h)
    have hc1 : condScale (grid0.coords t) := (hcondScale t).mpr h1
    rw [before0_1_tile1 V c t h1 d1]
    iapply ((runTile1 c (grid0.coords t) (ms0_0 t) (hs0_0 t) (ms0_1 t) (hs0_1 t) hc0 hc1 (win0_0.fill (grid0.coords t) d0 (xblk V c t))
      (sumTile0 V c ⟨t.val - 1, Nat.lt_of_le_of_lt (Nat.sub_le _ _) t.isLt⟩)).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexists d0; iexact H0
    unfold owns; iexists _; isplitr
    swap; · iexact H1
    ipureintro
    rw [View.read_writes_eq_canon _ _ _ (coverTile1 c _ _ _ _ _ hc0 hc1 _ _), canonTile1, hfill]
    unfold resAt; rw [if_neg h0]

end Region0

end Cert.ReferenceIdeal.Ref

end
-- ==== Proof.RefRegion1.lean ====
/-
  The second kernel region of the reference program: the gridless two-layer perceptron on whole operands.
  Its five inputs (the pooled features as a 64 × 256 matrix, the first layer's weights, its bias as a row, the second
  layer's weights as a column, its bias as a 1 × 1 matrix) are staged whole, the body loads them whole, computes the
  result column in one pure term and stores it whole; so after the body the result's staging buffer holds that term
  of the five arrays as the region found them, and the write-back puts it in the result array.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at the region's one point, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles of the body's loads and of its store. -/
abbrev rP : Rect S64x256 := Rect.unit (s := S64x256) ![0, 0] S64x256.size inb_S64x256_S64x256_0_0
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rW2 : Rect S256x1 := Rect.unit (s := S256x1) ![0, 0] S256x1.size inb_S256x1_S256x1_0_0
abbrev rB2 : Rect S1x1 := Rect.unit (s := S1x1) ![0, 0] S1x1.size inb_S1x1_S1x1_0_0
abbrev rO : Rect S64x1 := Rect.unit (s := S64x1) ![0, 0] S64x1.size inb_S64x1_S64x1_0_0

/-- What the body leaves in the result's staging buffer, from the five inputs' buffers: its one whole store. -/
def mlpOut (x0 : Vec F S64x256 .f32) (x1 : Vec F S256x256 .f32) (x2 : Vec F S1x256 .f32) (x3 : Vec F S256x1 .f32) (x4 : Vec F S1x1 .f32) : Vec F S64x1 .f32 :=
  View.canon [⟨rO, k1_pay1 (View.ld x0 rP) (View.ld x1 rW1) (View.ld x2 rB1) (View.ld x3 rW2) (View.ld x4 rB2)⟩]

/-- The one store covers the buffer. -/
theorem mlpCover (p0 : Vec F S64x1 .f32) (y : S64x1.Idx) :
    ∃ pc ∈ ([⟨rO, p0⟩] : List (View.Piece (Elt F) S64x1 .f32)), y ∈ pc.1.set :=
  View.cover_of_tiled [⟨rO, p0⟩] S64x1.size (by rfl) y

set_option maxHeartbeats 1000000 in
/-- The body on whole staging memrefs: the inputs' stay as they are and the result's ends at `mlpOut` of them. -/
theorem sound_mlp (c : Dev nD) (E : Set ℕ)
    (arg0 : Memref sig .tc .vmem S64x256 .f32) (harg0 : arg0.IsWhole) (arg1 : Memref sig .tc .vmem S256x256 .f32) (harg1 : arg1.IsWhole)
    (arg2 : Memref sig .tc .vmem S1x256 .f32) (harg2 : arg2.IsWhole) (arg3 : Memref sig .tc .vmem S256x1 .f32) (harg3 : arg3.IsWhole)
    (arg4 : Memref sig .tc .vmem S1x1 .f32) (harg4 : arg4.IsWhole) (arg5 : Memref sig .tc .vmem S64x1 .f32) (harg5 : arg5.IsWhole)
    (x0 : Vec F S64x256 .f32) (x1 : Vec F S256x256 .f32) (x2 : Vec F S1x256 .f32) (x3 : Vec F S256x1 .f32) (x4 : Vec F S1x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (mlpOut x0 x1 x2 x3 x4)) -∗ K ⟨⟩))
      ⊢ wp frame (wpE (defs₀ (F := F)) Variants.none c none) E (cc1__mlp_kernel arg0 harg0 arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (mlpCover _)

/-- The proof data of the second region on core `c`: the arrays as the region finds them; after the body each input's
    buffer at its block and the result's at `mlpOut` of the input blocks; the scoped rest and the generator register as the
    invariant, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => mlpOut (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = mlpOut (iblk1 V c 0 t) (iblk1 V c 1 t) (iblk1 V c 2 t) (iblk1 V c 3 t) (iblk1 V c 4 t) := by dsimp only [dat1]

/-- Each input's staging buffer holds its block when the body runs: every input window is fetched at the one point. -/
theorem before1_0 (c : Dev nD) (t : Fin cfg1.N) (d) : (dat1 V c).before 0 t d = iblk1 V c 0 t := by
  unfold Dat.before; rw [if_pos (fetch1_0 t)]; unfold Dat.fetched Dat.blockOf iblk1; rw [A_eq1]; rfl
theorem before1_1 (c : Dev nD) (t : Fin cfg1.N) (d) : (dat1 V c).before 1 t d = iblk1 V c 1 t := by
  unfold Dat.before; rw [if_pos (fetch1_1 t)]; unfold Dat.fetched Dat.blockOf iblk1; rw [A_eq1]; rfl
theorem before1_2 (c : Dev nD) (t : Fin cfg1.N) (d) : (dat1 V c).before 2 t d = iblk1 V c 2 t := by
  unfold Dat.before; rw [if_pos (fetch1_2 t)]; unfold Dat.fetched Dat.blockOf iblk1; rw [A_eq1]; rfl
theorem before1_3 (c : Dev nD) (t : Fin cfg1.N) (d) : (dat1 V c).before 3 t d = iblk1 V c 3 t := by
  unfold Dat.before; rw [if_pos (fetch1_3 t)]; unfold Dat.fetched Dat.blockOf iblk1; rw [A_eq1]; rfl
theorem before1_4 (c : Dev nD) (t : Fin cfg1.N) (d) : (dat1 V c).before 4 t d = iblk1 V c 4 t := by
  unfold Dat.before; rw [if_pos (fetch1_4 t)]; unfold Dat.fetched Dat.blockOf iblk1; rw [A_eq1]; rfl

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_mlp c Set.univ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation at the region's point. -/
theorem body_obligation1 (c : Dev nD) : BodyObligation (dat1 (F := F) V c) (defs₀ (F := F)) Variants.none () Set.univ := fun t => by
  rw [bigSep_W1, bigSep_W1]
  exact sound_body1 V c t

end Region1

end Cert.ReferenceIdeal.Ref

end
-- ==== Proof.RefRun.lean ====
/-
  The reference program's run, from the launch to the return: a reshape of the activation on the host, the pooling
  region, three reshapes on the host (the pooled column to a 64 × 256 matrix, the first bias to a row, the second bias
  to a 1 × 1 matrix), the perceptron region. The buffer contents at each boundary are a fold from the launch memory: a
  host stretch applies its operations; a region leaves its windows' arrays at what its write-backs leave and every
  other buffer as it found it. Every weakly fair execution terminates, and every final memory holds every unscoped
  buffer at the last boundary's contents.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import proofs.«119059_g2000108762910826_pallasbulk_11_6_alg».proof.Proof.RefRegion0
import proofs.«119059_g2000108762910826_pallasbulk_11_6_alg».proof.Proof.RefRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-! ## The buffer contents at each segment boundary -/

/-- Core `c`'s buffers at launch. -/
abbrev W0 : Dev nD → Valuation τ sig (Elt Ideal) := fun c b => m ((c : Dev nD), b)
/-- After the first host stretch (the pooling region's entry). -/
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b
/-- At the pooling region's exit. -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the perceptron region's entry). -/
abbrev W3 : Dev nD → Valuation τ sig (Elt Ideal) := fun c => StableHlo.after hostOps1 (W2 m c)
abbrev V3 : (c : Dev nD) → (b : Ref sig .tc) → Buf (Elt Ideal) ((c : Thread nD τ).loc b) := fun c b => W3 m c b
/-- At the perceptron region's exit. -/
def W4 (c : Dev nD) : Valuation τ sig (Elt Ideal) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt Ideal) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The proof data family and the thread state -/

abbrev adm : (p : Fin 2) → (pcfgs (F := Ideal) p).Adm := fun p => (cfgs p).toPCfg_adm
/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp (MT nD τ sig Unit (Elt Ideal) ℕ (UR sig nD τ) ℕ) :=
  iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt Ideal))).Forall fun op => op.fresh = ∅ := by
  simp only [List.Forall]; repeat' constructor
theorem ops1_fresh : (hostOps1 : List (HloOp τ sig (Elt Ideal))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp (MT nD τ sig Unit (Elt Ideal) ℕ (UR sig nD τ) ℕ) :=
  iprop(StableHlo.held (c : Thread nD τ) (Pipeline.ucRefs τ sig) (W4 m c) ∗ ∃ r, prngReg c r)

/-! ## The regions as segments -/

section
variable (hM : MaskedRead)

set_option backward.isDefEq.respectTransparency.types false in
/-- The pooling region over the thread state: entered from every unscoped buffer at `W1`, left at `W2`. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) hM c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The perceptron region over the thread state: entered from every unscoped buffer at `W3`, left at `W4`. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub ops0_fresh (W0 m)),
    .region (reg0 m hM),
    .host (hseg hostOps1 hostOps1_sub ops1_fresh (W2 m)),
    .region (reg1 m) ]

theorem main_run (c : Dev nD) : main (F := Ideal) c = Pipeline.Seg.run (segs m hM) := (main_chain c).trans (by chain_rfl)

set_option backward.isDefEq.respectTransparency.types false in
/-- THE RUN: every weakly fair execution of the reference's @main from memory `m` with zero counters terminates, and every
    final memory holds every unscoped buffer at the last boundary's contents `W4`. -/
theorem run (hM : MaskedRead) : θ_run defs (onTc (τ := τ) (main (F := Ideal))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := Ideal)) adm (pdats m) () cellOf_inj emb₁ defs₀ 𝒱₀ L lv m ρ main (segs m hM)
    (fun c Q => by rw [main_run m hM c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end

end Cert.ReferenceIdeal.Ref

end
-- ==== Proof.RefMathReshape.lean ====
/-
  The four reshapes of the reference's host program read at an index. A reshape keeps each element's row-major position,
  so every one of them is a statement about division with remainder:
    the activation [64, 256, 56, 56] viewed [16384, 3136] at (r, s) is the activation at (r / 256, r % 256, s / 56, s % 56);
    a column [16384, 1] viewed [64, 256] at (n, k) is the column at row n · 256 + k;
    a vector [256] viewed [1, 256] at (0, j) is the vector at j, and a vector [1] viewed [1, 1] likewise.
  Each is stated for any element type.
-/
import proofs.«119059_g2000108762910826_pallasbulk_11_6_alg».proof.Proof.Spec
import Idealize.ShloMosaic.Lib.ValueIdx
import Idealize.ShloMosaic.Lib.ValueLayout
import Idealize.ShloMosaic.Lib.Pipeline.Value

noncomputable section

namespace Cert.RefMath

open Idealize.ShloMosaic Idealize.ShloMosaic.ValueIdx

section Reshape
variable {α : Type}

/-- The activation viewed [16384, 3136], at row `r` and spatial position `s`: sample `r / 256`, channel `r % 256`,
    row `s / 56` and column `s % 56` of the plane. -/
theorem reshape_x_apply (x : (⟨4, ![64, 256, 56, 56]⟩ : Shape).Idx → α)
    (h : (⟨4, ![64, 256, 56, 56]⟩ : Shape).ShapeCasts ⟨2, ![16384, 3136]⟩) (r : Fin 16384) (s : Fin 3136) :
    shapeCast ⟨2, ![16384, 3136]⟩ x h (ix2 r s)
      = x (ix4 (⟨r.val / 256, by have := r.isLt; omega⟩ : Fin 64) (⟨r.val % 256, by omega⟩ : Fin 256)
            (⟨s.val / 56, by have := s.isLt; omega⟩ : Fin 56) (⟨s.val % 56, by omega⟩ : Fin 56)) := by
  refine shapeCast_apply x h _ _ ?_
  rw [Shape.rowMajor_val_four, Shape.rowMajor_val_two]
  show ((r.val / 256 * 256 + r.val % 256) * 56 + s.val / 56) * 56 + s.val % 56 = r.val * 3136 + s.val
  omega

/-- The same at row `n · 256 + k`: sample `n`, channel `k`. -/
theorem reshape_x_apply_nk (x : (⟨4, ![64, 256, 56, 56]⟩ : Shape).Idx → α)
    (h : (⟨4, ![64, 256, 56, 56]⟩ : Shape).ShapeCasts ⟨2, ![16384, 3136]⟩) (n : Fin 64) (k : Fin 256) (s : Fin 3136) :
    shapeCast ⟨2, ![16384, 3136]⟩ x h (ix2 (⟨n.val * 256 + k.val, by have := n.isLt; have := k.isLt; omega⟩ : Fin 16384) s)
      = x (ix4 n k (⟨s.val / 56, by have := s.isLt; omega⟩ : Fin 56) (⟨s.val % 56, by omega⟩ : Fin 56)) := by
  refine shapeCast_apply x h _ _ ?_
  rw [Shape.rowMajor_val_four, Shape.rowMajor_val_two]
  show ((n.val * 256 + k.val) * 56 + s.val / 56) * 56 + s.val % 56 = (n.val * 256 + k.val) * 3136 + s.val
  omega

/-- A column [16384, 1] viewed [64, 256], at `(n, k)`: the column at row `n · 256 + k`. -/
theorem reshape_col_apply (y : (⟨2, ![16384, 1]⟩ : Shape).Idx → α)
    (h : (⟨2, ![16384, 1]⟩ : Shape).ShapeCasts ⟨2, ![64, 256]⟩) (n : Fin 64) (k : Fin 256) :
    shapeCast ⟨2, ![64, 256]⟩ y h (ix2 n k)
      = y (ix2 (⟨n.val * 256 + k.val, by have := n.isLt; have := k.isLt; omega⟩ : Fin 16384) (0 : Fin 1)) := by
  refine shapeCast_apply y h _ _ ?_
  rw [Shape.rowMajor_val_two, Shape.rowMajor_val_two]
  show (n.val * 256 + k.val) * 1 + 0 = n.val * 256 + k.val
  omega

/-- A vector [256] viewed [1, 256], at `(0, j)`: the vector at `j`. -/
theorem reshape_row_apply (b : (⟨1, ![256]⟩ : Shape).Idx → α) (h : (⟨1, ![256]⟩ : Shape).ShapeCasts ⟨2, ![1, 256]⟩)
    (j : Fin 256) : shapeCast ⟨2, ![1, 256]⟩ b h (ix2 (0 : Fin 1) j) = b (ix1 j) :=
  shapeCast_a_1a_apply b h 0 j

/-- A vector [1] viewed [1, 1], at `(0, 0)`: the vector's one element. -/
theorem reshape_one_apply (b : (⟨1, ![1]⟩ : Shape).Idx → α) (h : (⟨1, ![1]⟩ : Shape).ShapeCasts ⟨2, ![1, 1]⟩) :
    shapeCast ⟨2, ![1, 1]⟩ b h (ix2 (0 : Fin 1) (0 : Fin 1)) = b (ix1 (0 : Fin 1)) :=
  shapeCast_a_1a_apply b h 0 0

end Reshape

/-- The activation viewed [16384, 3136], at row `r` and position `s`, in the words of the specification: the activation
    at sample `r / 256`, channel `r % 256`, position `s`. -/
theorem reshape_x_xAt (x : Cert.AlphaSpec.XIdx → EReal)
    (h : (⟨4, ![64, 256, 56, 56]⟩ : Shape).ShapeCasts ⟨2, ![16384, 3136]⟩) (r : Fin 16384) (s : Fin 3136) :
    shapeCast ⟨2, ![16384, 3136]⟩ x h (ix2 r s)
      = Cert.AlphaSpec.xAt x (⟨r.val / 256, by have := r.isLt; omega⟩ : Fin 64) (⟨r.val % 256, by omega⟩ : Fin 256) s :=
  reshape_x_apply x h r s

/-- The same at row `n · 256 + k`: the activation at sample `n`, channel `k`, position `s`. -/
theorem reshape_x_xAt_nk (x : Cert.AlphaSpec.XIdx → EReal)
    (h : (⟨4, ![64, 256, 56, 56]⟩ : Shape).ShapeCasts ⟨2, ![16384, 3136]⟩) (n : Fin 64) (k : Fin 256) (s : Fin 3136) :
    shapeCast ⟨2, ![16384, 3136]⟩ x h (ix2 (⟨n.val * 256 + k.val, by have := n.isLt; have := k.isLt; omega⟩ : Fin 16384) s)
      = Cert.AlphaSpec.xAt x n k s :=
  reshape_x_apply_nk x h n k s

end Cert.RefMath

end
-- ==== Proof.RefValueHost.lean ====
/-
  What the reference's two regions find in the arrays the host prepared, traced back to the launch memory.

  The pooling region reads the activation flattened to 16384 × 3136: row 256·n + k is the plane of channel k of sample n,
  column s its spatial position s. The perceptron region reads the pooled column reshaped to 64 × 256 (entry (n, k) is
  row 256·n + k of the column), the first bias as a row, the second bias as a 1 × 1 matrix, and the two weight matrices
  as launched. No host operation and no region writes an argument array.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import proofs.«119059_g2000108762910826_pallasbulk_11_6_alg».proof.Proof.RefRun
import proofs.«119059_g2000108762910826_pallasbulk_11_6_alg».proof.Proof.RefMathReshape
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Idealize.ShloMosaic.StableHlo Cert.AlphaSpec

variable (m : (ℓ : Loc nD τ sig) → Buf (Elt Ideal) ℓ)

/-! ## The first host stretch -/

/-- The pooling region finds the activation flattened to 16384 × 3136. -/
theorem V1_x (c : Dev nD) :
    (V1 m c main_v0 : S16384x3136.Idx → EReal)
      = shapeCast S16384x3136 (m ((c : Thread nD τ).loc main_arg0) : S64x256x56x56.Idx → EReal) shapeCasts_S64x256x56x56_S16384x3136 := by
  dsimp only [V1, W1, W0, hostOps0]; after_results; rfl

theorem V1_x_apply (c : Dev nD) (r : Fin 16384) (s : Fin 3136) :
    (V1 m c main_v0 : S16384x3136.Idx → EReal) (ix2 r s)
      = xAt (m ((c : Thread nD τ).loc main_arg0)) ⟨r.val / 256, by have := r.isLt; omega⟩ ⟨r.val % 256, by omega⟩ s := by
  rw [V1_x]; exact Cert.RefMath.reshape_x_xAt _ _ r s

/-- The first stretch writes no argument. -/
theorem W1_arg1 (c : Dev nD) : W1 m c (Proc.devRef .tc main_arg1) = m ((c : Thread nD τ).loc main_arg1) := by
  dsimp only [W1, W0, hostOps0]; after_results
theorem W1_arg2 (c : Dev nD) : W1 m c (Proc.devRef .tc main_arg2) = m ((c : Thread nD τ).loc main_arg2) := by
  dsimp only [W1, W0, hostOps0]; after_results
theorem W1_arg3 (c : Dev nD) : W1 m c (Proc.devRef .tc main_arg3) = m ((c : Thread nD τ).loc main_arg3) := by
  dsimp only [W1, W0, hostOps0]; after_results
theorem W1_arg4 (c : Dev nD) : W1 m c (Proc.devRef .tc main_arg4) = m ((c : Thread nD τ).loc main_arg4) := by
  dsimp only [W1, W0, hostOps0]; after_results
theorem W1_arg0 (c : Dev nD) : W1 m c (Proc.devRef .tc main_arg0) = m ((c : Thread nD τ).loc main_arg0) := by
  dsimp only [W1, W0, hostOps0]; after_results

/-! ## Across the pooling region: it may change only its result array -/

theorem W2_arg0 (c : Dev nD) : W2 m c (Proc.devRef .tc main_arg0) = m ((c : Thread nD τ).loc main_arg0) :=
  (W2_of_ne m c main_arg0 (by decide)).trans (W1_arg0 m c)
theorem W2_arg1 (c : Dev nD) : W2 m c (Proc.devRef .tc main_arg1) = m ((c : Thread nD τ).loc main_arg1) :=
  (W2_of_ne m c main_arg1 (by decide)).trans (W1_arg1 m c)
theorem W2_arg2 (c : Dev nD) : W2 m c (Proc.devRef .tc main_arg2) = m ((c : Thread nD τ).loc main_arg2) :=
  (W2_of_ne m c main_arg2 (by decide)).trans (W1_arg2 m c)
theorem W2_arg3 (c : Dev nD) : W2 m c (Proc.devRef .tc main_arg3) = m ((c : Thread nD τ).loc main_arg3) :=
  (W2_of_ne m c main_arg3 (by decide)).trans (W1_arg3 m c)
theorem W2_arg4 (c : Dev nD) : W2 m c (Proc.devRef .tc main_arg4) = m ((c : Thread nD τ).loc main_arg4) :=
  (W2_of_ne m c main_arg4 (by decide)).trans (W1_arg4 m c)
/-- The pooled column is what the pooling region's write-backs leave. -/
theorem W2_pool (c : Dev nD) : W2 m c (Proc.devRef .tc main_v1) = (dat0 (V1 m) c).arrAt 1 cfg0.N := W2_arr m c 1

/-! ## The second host stretch -/

theorem V3_pooled (c : Dev nD) :
    (V3 m c main_v2 : S64x256.Idx → EReal)
      = shapeCast S64x256 (W2 m c (Proc.devRef .tc main_v1) : S16384x1.Idx → EReal) shapeCasts_S16384x1_S64x256 := by
  dsimp only [V3, W3, hostOps1]; after_results; rfl
theorem V3_b1 (c : Dev nD) :
    (V3 m c main_v3 : S1x256.Idx → EReal)
      = shapeCast S1x256 (W2 m c (Proc.devRef .tc main_arg2) : S256.Idx → EReal) shapeCasts_S256_S1x256 := by
  dsimp only [V3, W3, hostOps1]; after_results; rfl
theorem V3_b2 (c : Dev nD) :
    (V3 m c main_v4 : S1x1.Idx → EReal)
      = shapeCast S1x1 (W2 m c (Proc.devRef .tc main_arg4) : S1.Idx → EReal) shapeCasts_S1_S1x1 := by
  dsimp only [V3, W3, hostOps1]; after_results; rfl
theorem W3_arg0 (c : Dev nD) : W3 m c (Proc.devRef .tc main_arg0) = m ((c : Thread nD τ).loc main_arg0) := by
  refine Eq.trans ?_ (W2_arg0 m c); dsimp only [W3, hostOps1]; after_results
theorem W3_arg1 (c : Dev nD) : W3 m c (Proc.devRef .tc main_arg1) = m ((c : Thread nD τ).loc main_arg1) := by
  refine Eq.trans ?_ (W2_arg1 m c); dsimp only [W3, hostOps1]; after_results
theorem W3_arg2 (c : Dev nD) : W3 m c (Proc.devRef .tc main_arg2) = m ((c : Thread nD τ).loc main_arg2) := by
  refine Eq.trans ?_ (W2_arg2 m c); dsimp only [W3, hostOps1]; after_results
theorem W3_arg3 (c : Dev nD) : W3 m c (Proc.devRef .tc main_arg3) = m ((c : Thread nD τ).loc main_arg3) := by
  refine Eq.trans ?_ (W2_arg3 m c); dsimp only [W3, hostOps1]; after_results
theorem W3_arg4 (c : Dev nD) : W3 m c (Proc.devRef .tc main_arg4) = m ((c : Thread nD τ).loc main_arg4) := by
  refine Eq.trans ?_ (W2_arg4 m c); dsimp only [W3, hostOps1]; after_results

/-! ## Across the perceptron region: the arguments it stages are inputs, the others it does not touch -/

theorem W4_arg0 (c : Dev nD) : W4 m c (Proc.devRef .tc main_arg0) = m ((c : Thread nD τ).loc main_arg0) :=
  (W4_of_ne m c main_arg0 (by decide)).trans (W3_arg0 m c)
theorem W4_arg2 (c : Dev nD) : W4 m c (Proc.devRef .tc main_arg2) = m ((c : Thread nD τ).loc main_arg2) :=
  (W4_of_ne m c main_arg2 (by decide)).trans (W3_arg2 m c)
theorem W4_arg4 (c : Dev nD) : W4 m c (Proc.devRef .tc main_arg4) = m ((c : Thread nD τ).loc main_arg4) :=
  (W4_of_ne m c main_arg4 (by decide)).trans (W3_arg4 m c)
theorem W4_arg1 (c : Dev nD) : W4 m c (Proc.devRef .tc main_arg1) = m ((c : Thread nD τ).loc main_arg1) :=
  (W4_arr m c 1).trans (((dat1 (V3 m) c).arrAt_in 1 rfl _).trans ((A_eq1 (V3 m) c 1).trans (W3_arg1 m c)))
theorem W4_arg3 (c : Dev nD) : W4 m c (Proc.devRef .tc main_arg3) = m ((c : Thread nD τ).loc main_arg3) :=
  (W4_arr m c 3).trans (((dat1 (V3 m) c).arrAt_in 3 rfl _).trans ((A_eq1 (V3 m) c 3).trans (W3_arg3 m c)))
/-- The result array is what the perceptron region's write-back leaves. -/
theorem W4_out (c : Dev nD) : W4 m c (Proc.devRef .tc main_v5) = (dat1 (V3 m) c).arrAt 5 cfg1.N := W4_arr m c 5

end Cert.ReferenceIdeal.Ref

end
-- ==== Proof.RefMathPool.lean ====
/-
  The pooling body's three stored values read at one row, over the extended reals.

  The first is the zero column. The third is the stored column times the scaling literal. The second is the stored
  column plus, per row, the sum over the 2048 lanes of the block, a lane counted only when its position in the plane
  (lane + 2048 · tile) is below 3136.
-/
import proofs.«119059_g2000108762910826_pallasbulk_11_6_alg».proof.Proof.Gen.ReferenceIdeal.Skeleton
import proofs.«119059_g2000108762910826_pallasbulk_11_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefMath

open Cert.ReferenceIdeal Cert.ReferenceIdeal.Gen Idealize.ShloMosaic Idealize.ShloMosaic.ValueIdx
open scoped BigOperators

variable [Cert.ReferenceIdeal.Facts]

/-- The reset value is the zero column. -/
theorem pay1_apply (j : S512x1.Idx) : Gen.k0_pay1 (F := Ideal) j = 0 := by
  show Ideal.ofBits .f32 0x00000000#32 = 0
  exact Ideal.ofBits_zero_f32

/-- The scaled column at row `p` is the stored value there times the scaling literal. -/
theorem pay3_apply (Y : Vec Ideal S512x1 .f32) (p : Fin 512) :
    Gen.k0_pay3 Y (ix2 p (0 : Fin 1)) = Y (ix2 p 0) * Cert.AlphaSpec.invS := by
  unfold Gen.k0_pay3
  rw [shapeCast_self]
  rfl

/-! ## The accumulated column -/

/-- The lane mask as a condition on naturals: for a lane `l` below 2048 and a tile number `t` below 2, the signed
    32-bit comparison of `l + t · 2048` with 3136 is the comparison of the naturals (no word wraps: all are below 2³¹). -/
theorem mask_bit (l t : Nat) (hl : l < 2048) (ht : t < 2) :
    IntOp.cmpi .slt (IntOp.addi (BitVec.ofNat 32 l) (Scalar.muli (BitVec.ofNat 32 t) 2048#32)) 3136#32
      = if l + 2048 * t < 3136 then 1#1 else 0#1 := by
  have e : IntOp.addi (BitVec.ofNat 32 l) (Scalar.muli (BitVec.ofNat 32 t) 2048#32) = BitVec.ofNat 32 (l + 2048 * t) := by
    show BitVec.ofNat 32 l + BitVec.ofNat 32 t * 2048#32 = _
    rw [Nat.mul_comm 2048 t, BitVec.ofNat_add, BitVec.ofNat_mul]
  rw [e]
  show BitVec.ofBool ((BitVec.ofNat 32 (l + 2048 * t)).slt 3136#32) = _
  have hs : (BitVec.ofNat 32 (l + 2048 * t)).slt 3136#32 = decide (l + 2048 * t < 3136) := by
    rw [BitVec.slt_eq_decide]
    have h1 : (BitVec.ofNat 32 (l + 2048 * t)).toInt = ((l + 2048 * t : Nat) : Int) := by
      rw [BitVec.toInt_eq_toNat_of_lt (by rw [BitVec.toNat_ofNat]; omega), BitVec.toNat_ofNat]
      congr 1
      omega
    have h2 : (3136#32 : BitVec 32).toInt = 3136 := by decide
    rw [h1, h2]
    congr 1
    apply propext
    omega
  rw [hs]
  by_cases h : l + 2048 * t < 3136
  · rw [if_pos h]; simp [h]
  · rw [if_neg h]; simp [h]

/-- A select on that bit is the `if`. -/
theorem select_mask {α : Type} (c : Prop) [Decidable c] (a b : α) :
    Scalar.select (if c then 1#1 else 0#1) a b = if c then a else b := by
  by_cases h : c
  · rw [if_pos h, if_pos h, select_one]
  · rw [if_neg h, if_neg h, select_zero]

/-- The tile number is below 2. -/
theorem tile_lt (i : grid0.Coords) : (i 1).val < 2 := (i 1).isLt

/-- The lane sum's source index over row `p` at lane `l` is `(p, l)`. -/
theorem lift_row (h : S512x2048.Reduces [1] S512) (p : Fin 512) (l : Fin 2048) : h.lift (ix1 p) l = ix2 p l := by
  funext a
  match a with
  | ⟨0, _⟩ => rfl
  | ⟨1, _⟩ => rfl

/-- The lane sum at row `p`: the sum over the 2048 lanes of the summand at `(p, l)`. -/
theorem lane_sum (h : S512x2048.Reduces [1] S512) (v : FVec Ideal S512x2048 .f32) (hφ : FKind.Formats .f32)
    (hacc : (0x00000000#32 : BitVec 32) = FKind.add.neutral .f32 hφ) (p : Fin 512) :
    multiReduction .add [1] S512 v 0x00000000#32 h hφ hacc (ix1 p) = ∑ l : Fin 2048, v (ix2 p l) := by
  refine (Ideal.multiReduction_add_single v _ h hφ hacc (ix1 p)).trans ?_
  exact Finset.sum_congr rfl fun l _ => congrArg v (lift_row h p l)

/-- The accumulated column at row `p`: the stored value there plus the sum over the block's 2048 lanes, a lane counted
    only when its position `l + 2048 · tile` in the plane is below 3136. -/
theorem pay2_apply (i : grid0.Coords) (X : Vec Ideal S512x2048 .f32) (acc : Vec Ideal S512x1 .f32) (p : Fin 512) :
    Gen.k0_pay2 i X acc (ix2 p (0 : Fin 1))
      = acc (ix2 p 0) + ∑ l : Fin 2048, (if l.val + 2048 * (i 1).val < 3136 then X (ix2 p l) else 0) := by
  unfold Gen.k0_pay2
  simp only [shapeCast_self]
  rw [addf_apply]
  congr 1
  refine (shapeCast_apply _ _ (ix2 p (0 : Fin 1)) (ix1 p) ?_).trans ?_
  · rw [Shape.rowMajor_val_one, Shape.rowMajor_val_two]
    show p.val = p.val * 1 + 0
    omega
  refine (lane_sum _ _ _ _ p).trans ?_
  refine Finset.sum_congr rfl fun l _ => ?_
  rw [select_apply]
  show Scalar.select (IntOp.cmpi .slt (IntOp.addi (iota .tc S512x2048 32 [1] iota_S512x2048_d1_w32 (ix2 p l))
      (Scalar.muli (BitVec.ofNat 32 (i 1).val) 2048#32)) 3136#32) (X (ix2 p l)) (Ideal.ofBits .f32 0x00000000#32) = _
  rw [iota_single_apply]
  show Scalar.select (IntOp.cmpi .slt (IntOp.addi (BitVec.ofNat 32 l.val)
      (Scalar.muli (BitVec.ofNat 32 (i 1).val) 2048#32)) 3136#32) (X (ix2 p l)) (Ideal.ofBits .f32 0x00000000#32) = _
  rw [mask_bit l.val (i 1).val l.isLt (tile_lt i), select_mask, Ideal.ofBits_zero_f32]

/-- So the accumulated column depends on the block only at the lanes inside the plane. -/
theorem pay2_congr (i : grid0.Coords) (X X' : Vec Ideal S512x2048 .f32) (acc : Vec Ideal S512x1 .f32) (p : Fin 512)
    (hX : ∀ l : Fin 2048, l.val + 2048 * (i 1).val < 3136 → X (ix2 p l) = X' (ix2 p l)) :
    Gen.k0_pay2 i X acc (ix2 p (0 : Fin 1)) = Gen.k0_pay2 i X' acc (ix2 p (0 : Fin 1)) := by
  rw [pay2_apply, pay2_apply]
  congr 1
  refine Finset.sum_congr rfl fun l _ => ?_
  by_cases h : l.val + 2048 * (i 1).val < 3136
  · rw [if_pos h, if_pos h, hX l h]
  · rw [if_neg h, if_neg h]

end Cert.RefMath

end
-- ==== Proof.RefMathMlp.lean ====
/-
  The dense body's stored value read at one sample, over the extended reals: the logistic function of the second
  layer's sum over the 256 hidden units plus its bias, a hidden unit being the first layer's sum over the 256 pooled
  features plus its bias, clamped below at zero.
-/
import proofs.«119059_g2000108762910826_pallasbulk_11_6_alg».proof.Proof.Gen.ReferenceIdeal.Skeleton
import proofs.«119059_g2000108762910826_pallasbulk_11_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefMath

open Cert.ReferenceIdeal Cert.ReferenceIdeal.Gen Idealize.ShloMosaic Idealize.ShloMosaic.ValueIdx
open scoped BigOperators

/-- A plain matrix product into the zero accumulator, an m×k by a k×n matrix contracted over the left operand's columns
    and the right operand's rows, read at `(a, b)`: the sum over the contracted coordinate of the products of the entries.
    `w` is the record's well-formedness, which a program states. -/
theorem matmul_plain_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A one-row array broadcast over `a` rows reads, at `(p, c)`, the row at `c`; with one column too. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (c : Fin 1) :
    broadcastTo ⟨2, ![a, 1]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

variable [Cert.ReferenceIdeal.Facts]

/-- The dense body's value at sample `n`. -/
theorem mlp_apply (P : Vec Ideal S64x256 .f32) (W1 : Vec Ideal S256x256 .f32) (B1 : Vec Ideal S1x256 .f32)
    (W2 : Vec Ideal S256x1 .f32) (B2 : Vec Ideal S1x1 .f32) (n : Fin 64) :
    Gen.k1_pay1 P W1 B1 W2 B2 (ix2 n (0 : Fin 1))
      = Ideal.logistic ((∑ j : Fin 256, max ((∑ k : Fin 256, P (ix2 n k) * W1 (ix2 k j)) + B1 (ix2 (0 : Fin 1) j)) 0
            * W2 (ix2 j (0 : Fin 1))) + B2 (ix2 (0 : Fin 1) (0 : Fin 1))) := by
  unfold Gen.k1_pay1
  simp only [shapeCast_self]
  show Ideal.logistic (matmul dot_S64x256_S256x1_S64x1_1_0_0_1_n_n none _ W2 (constant (F := Ideal) S64x1 .f32 0x00000000#32) (ix2 n (0 : Fin 1))
      + broadcastTo S64x1 B2 broadcasts_S1x1_S64x1 (ix2 n (0 : Fin 1))) = _
  congr 1
  rw [broadcastTo_11_a1_apply]
  congr 1
  refine (matmul_plain_zero_apply dot_S64x256_S256x1_S64x1_1_0_0_1_n_n_wf none _ W2 n (0 : Fin 1)).trans ?_
  refine Finset.sum_congr rfl fun j _ => ?_
  congr 1
  rw [maximumf_apply, addf_apply, broadcastTo_1b_ab_apply]
  show max (matmul dot_S64x256_S256x256_S64x256_1_0_0_1_n_n none P W1 (constant (F := Ideal) S64x256 .f32 0x00000000#32) (ix2 n j)
      + B1 (ix2 (0 : Fin 1) j)) (Ideal.ofBits .f32 0x00000000#32) = _
  rw [Ideal.ofBits_zero_f32]
  congr 2
  exact matmul_plain_zero_apply dot_S64x256_S256x256_S64x256_1_0_0_1_n_n_wf none P W1 n j

end Cert.RefMath

end
-- ==== Proof.RefMathTile.lean ====
/-
  The tile law: a sum over the 3136 positions of a plane is the sum over the first tile of 2048 lanes plus the sum over
  the second tile's lanes whose position (lane + 2048) is still inside the plane, each tile's sum taken over all 2048
  lanes with the lanes outside the plane counted as zero, starting from zero.
-/
import Idealize.ShloMosaic.PureOps.Ideal

noncomputable section

namespace Cert.RefMath

open scoped BigOperators

/-- Two masked tile sums, accumulated from zero, make the sum over the plane. `g0` is the first tile's row (lane `l` is
    position `l`), `g1` the second tile's (lane `l` is position `l + 2048`, known only where that is below 3136). -/
theorem tile_sum (f : Fin 3136 → EReal) (g0 g1 : Fin 2048 → EReal)
    (h0 : ∀ l : Fin 2048, g0 l = f ⟨l.val, by omega⟩)
    (h1 : ∀ (l : Fin 2048) (h : l.val + 2048 < 3136), g1 l = f ⟨l.val + 2048, h⟩) :
    ((0 : EReal) + ∑ l : Fin 2048, (if l.val + 2048 * 0 < 3136 then g0 l else 0))
        + ∑ l : Fin 2048, (if l.val + 2048 * 1 < 3136 then g1 l else 0)
      = ∑ s : Fin 3136, f s := by
  -- the plane's function continued by zero to every natural
  let F : ℕ → EReal := fun s => if h : s < 3136 then f ⟨s, h⟩ else 0
  have hFin : ∀ (s : ℕ) (h : s < 3136), F s = f ⟨s, h⟩ := fun s h => dif_pos h
  have hFout : ∀ s : ℕ, ¬ s < 3136 → F s = 0 := fun s h => dif_neg h
  have e0 : ∀ l : Fin 2048, (if l.val + 2048 * 0 < 3136 then g0 l else 0) = F l.val := by
    intro l
    have hl := l.isLt
    rw [if_pos (by omega), h0 l, hFin l.val (by omega)]
  have e1 : ∀ l : Fin 2048, (if l.val + 2048 * 1 < 3136 then g1 l else 0) = F (2048 + l.val) := by
    intro l
    by_cases h : l.val + 2048 < 3136
    · rw [if_pos (by omega), h1 l h, hFin (2048 + l.val) (by omega)]
      exact congrArg f (Fin.ext (Nat.add_comm _ _))
    · rw [if_neg (by omega), hFout (2048 + l.val) (by omega)]
  have eT : ∑ s : Fin 3136, f s = ∑ s ∈ Finset.range 3136, F s := by
    rw [Finset.sum_range]
    exact Finset.sum_congr rfl fun s _ => (hFin s.val s.isLt).symm
  have tail : ∑ l ∈ Finset.range 2048, F (2048 + l) = ∑ l ∈ Finset.range 1088, F (2048 + l) := by
    have hs := Finset.sum_range_add (fun l => F (2048 + l)) 1088 960
    rw [show (1088 + 960 : ℕ) = 2048 from rfl] at hs
    rw [hs, Finset.sum_eq_zero (s := Finset.range 960) (fun x _ => hFout _ (by omega)), add_zero]
  have split : ∑ s ∈ Finset.range 3136, F s = ∑ s ∈ Finset.range 2048, F s + ∑ l ∈ Finset.range 1088, F (2048 + l) := by
    have hs := Finset.sum_range_add F 2048 1088
    rw [show (2048 + 1088 : ℕ) = 3136 from rfl] at hs
    exact hs
  rw [zero_add, Finset.sum_congr rfl (fun l _ => e0 l), Finset.sum_congr rfl (fun l _ => e1 l), eT, split, ← tail,
    Finset.sum_range (fun s => F s), Finset.sum_range (fun l => F (2048 + l))]

end Cert.RefMath

end
-- ==== Proof.RefMathGlue.lean ====
/-
  Three consequences of the bodies' values read at an index.
    The accumulated column, as a function, depends on the block only at the lanes whose position is inside the plane.
    One row of the pooling, both tiles together: from the zero column, the first tile's masked lane sum, then the
    second tile's, then the scaling, is the row's sum over the whole plane times the scaling literal.
    The dense body on the pooled features and the two biases viewed as rows is the specified result array.
-/
import proofs.«119059_g2000108762910826_pallasbulk_11_6_alg».proof.Proof.RefMathPool
import proofs.«119059_g2000108762910826_pallasbulk_11_6_alg».proof.Proof.RefMathMlp
import proofs.«119059_g2000108762910826_pallasbulk_11_6_alg».proof.Proof.RefMathTile
import proofs.«119059_g2000108762910826_pallasbulk_11_6_alg».proof.Proof.Spec

noncomputable section

namespace Cert.RefMath

open Cert.ReferenceIdeal Cert.ReferenceIdeal.Gen Idealize.ShloMosaic Idealize.ShloMosaic.ValueIdx
open scoped BigOperators

variable [Cert.ReferenceIdeal.Facts]

/-- Two blocks that agree at every lane whose position `l + 2048 · tile` is below 3136 give the same accumulated column. -/
theorem masked_read : ∀ (i : grid0.Coords) (X X' : Vec Ideal S512x2048 .f32) (acc : Vec Ideal S512x1 .f32),
    (∀ (p : Fin 512) (l : Fin 2048), l.val + 2048 * (i 1).val < 3136 → X (ix2 p l) = X' (ix2 p l)) →
    Gen.k0_pay2 i X acc = Gen.k0_pay2 i X' acc := by
  intro i X X' acc hX
  funext j
  obtain ⟨p, q, rfl⟩ : ∃ (p : Fin 512) (q : Fin 1), j = ix2 p q := ⟨j 0, j 1, eq_ix2 j⟩
  obtain rfl : q = 0 := Subsingleton.elim _ _
  exact pay2_congr i X X' acc p (hX p)

/-- Row `p` after the two tiles: `f` is the row of the plane, `X0` holds its positions 0 … 2047 and `X1` its positions
    2048 … (known only below 3136). -/
theorem pool_point (i0 i1 : grid0.Coords) (h0 : (i0 1).val = 0) (h1 : (i1 1).val = 1)
    (X0 X1 : Vec Ideal S512x2048 .f32) (f : Fin 3136 → EReal) (p : Fin 512)
    (hX0 : ∀ l : Fin 2048, X0 (ix2 p l) = f ⟨l.val, by omega⟩)
    (hX1 : ∀ (l : Fin 2048) (h : l.val + 2048 < 3136), X1 (ix2 p l) = f ⟨l.val + 2048, h⟩) :
    Gen.k0_pay3 (Gen.k0_pay2 i1 X1 (Gen.k0_pay2 i0 X0 (Gen.k0_pay1 (F := Ideal)))) (ix2 p (0 : Fin 1))
      = (∑ s : Fin 3136, f s) * Cert.AlphaSpec.invS := by
  rw [pay3_apply, pay2_apply, pay2_apply, pay1_apply, h0, h1]
  congr 1
  exact tile_sum f (fun l => X0 (ix2 p l)) (fun l => X1 (ix2 p l)) hX0 hX1

/-- The dense body on the pooled features, with the biases viewed as rows, is the specified result array. -/
theorem mlp_alpha (x : Cert.AlphaSpec.XIdx → EReal) (w1 : Cert.AlphaSpec.W1Idx → EReal) (b1 : Cert.AlphaSpec.B1Idx → EReal)
    (w2 : Cert.AlphaSpec.W2Idx → EReal) (b2 : Cert.AlphaSpec.B2Idx → EReal)
    (P : Vec Ideal S64x256 .f32) (B1 : Vec Ideal S1x256 .f32) (B2 : Vec Ideal S1x1 .f32)
    (hP : ∀ (n : Fin 64) (k : Fin 256), P (ix2 n k) = Cert.AlphaSpec.pooled x n k)
    (hB1 : ∀ j : Fin 256, B1 (ix2 (0 : Fin 1) j) = b1 (ix1 j))
    (hB2 : B2 (ix2 (0 : Fin 1) (0 : Fin 1)) = b2 (ix1 (0 : Fin 1))) :
    Gen.k1_pay1 P w1 B1 w2 B2 = Cert.AlphaSpec.alpha x w1 b1 w2 b2 := by
  funext i
  obtain ⟨n, q, rfl⟩ : ∃ (n : Fin 64) (q : Fin 1), i = ix2 n q := ⟨i 0, i 1, eq_ix2 i⟩
  obtain rfl : q = 0 := Subsingleton.elim _ _
  rw [mlp_apply]
  simp only [hP, hB1, hB2]
  rfl

end Cert.RefMath

end
-- ==== Proof.RefValuePool.lean ====
/-
  The pooling region's result array, as one function of the activation.

  The region's grid is 32 row blocks by 2 spatial tiles; point t = 2 r + s works on rows 512 r … 512 r + 511 of the
  activation flattened to 16384 × 3136 (row R is sample R / 256, channel R % 256) and on columns 2048 s … of the plane,
  of which tile 1 has only 1088 inside the array. The result block of a row block is written back after tile 1, at
  the odd points. At an odd point the block's row p holds, by the two accumulation steps and the scaling, the sum
  over all 3136 positions of row 512 r + p times the scaling literal: the tile buffers are read only at positions
  inside the plane, where they hold the array's entries. The 32 written blocks cover the 16384 rows (row R lies in
  the block of point 2 (R / 512) + 1), so after the region the result array is, at row R, the pooled feature of
  sample R / 256 and channel R % 256.
-/
import proofs.«119059_g2000108762910826_pallasbulk_11_6_alg».proof.Proof.RefRegion0
import proofs.«119059_g2000108762910826_pallasbulk_11_6_alg».proof.Proof.RefMathGlue
import proofs.«119059_g2000108762910826_pallasbulk_11_6_alg».proof.Proof.Spec
import Idealize.ShloMosaic.Lib.Pipeline.Value
import Idealize.ShloMosaic.Lib.ValueIdx

set_option maxRecDepth 16384

noncomputable section

namespace Cert.ReferenceIdeal.Ref

open Cert.ReferenceIdeal Cert.ReferenceIdeal.Gen Cert.AlphaSpec
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b))

/-- The grid's points and the two windows' blocks, decided over the 64 points: point t is row block t / 2, tile t % 2;
    the tile window's block index is (t / 2, t % 2), the result window's (t / 2, 0). -/
theorem pool_idx_facts : ∀ t : Fin cfg0.N,
    (grid0.coords t 0).val = t.val / 2 ∧ (grid0.coords t 1).val = t.val % 2
    ∧ win0_0.index t (0 : Fin 2) = t.val / 2 ∧ win0_0.index t (1 : Fin 2) = t.val % 2
    ∧ win0_1.index t (0 : Fin 2) = t.val / 2 ∧ win0_1.index t (1 : Fin 2) = 0 :=
  (by decide +kernel : ∀ t : Fin grid0.N,
    (grid0.coords t 0).val = t.val / 2 ∧ (grid0.coords t 1).val = t.val % 2
    ∧ win0_0.index t (0 : Fin 2) = t.val / 2 ∧ win0_0.index t (1 : Fin 2) = t.val % 2
    ∧ win0_1.index t (0 : Fin 2) = t.val / 2 ∧ win0_1.index t (1 : Fin 2) = 0)

/-- The tile buffer at point t, at a position inside the plane, holds the flattened activation's entry there:
    row 512 (t / 2) + p, column 2048 (t % 2) + l. -/
theorem tileAt_apply (c : Dev nD) (t : Fin cfg0.N) (p : Fin 512) (l : Fin 2048) (h : l.val + 2048 * (t.val % 2) < 3136)
    (r : Fin 16384) (s : Fin 3136) (hr : r.val = 512 * (t.val / 2) + p.val) (hs : s.val = 2048 * (t.val % 2) + l.val) :
    tileAt V c t (ix2 p l) = (V c main_v0 : S16384x3136.Idx → EReal) (ix2 r s) := by
  obtain ⟨g0, g1, e0, e1, -⟩ := pool_idx_facts t
  have hm : win0_0.moved (grid0.coords t) (ix2 p l) = true := (win0_0.moved_iff _ _).mpr fun a => by
    match a with
    | ⟨0, _⟩ => show p.val < win0_0.xsize (grid0.coords t) 0; rw [(xsize_tile t).1]; exact p.isLt
    | ⟨1, _⟩ => show l.val < win0_0.xsize (grid0.coords t) 1; rw [(xsize_tile t).2, g1]; split <;> omega
  unfold tileAt Window.fill
  rw [dif_pos hm]
  unfold xblk
  show V c main_v0 ((win0_0.blk t).view.emb _) = V c main_v0 (ix2 r s)
  refine congrArg (V c main_v0) (funext fun a => Fin.ext ?_)
  match a with
  | ⟨0, _⟩ => show win0_0.index t (0 : Fin 2) * 512 + 1 * p.val = r.val; omega
  | ⟨1, _⟩ => show win0_0.index t (1 : Fin 2) * 2048 + 1 * l.val = s.val; omega

/-- The result array of the region, as the specification gives it: row R holds the pooled feature of sample R / 256,
    channel R % 256. -/
abbrev pooledRows (x : XIdx → EReal) : S16384x1.Idx → EReal :=
  fun i => pooled x ⟨(i 0).val / 256, by have := idx2_lt0 i; omega⟩ ⟨(i 0).val % 256, by omega⟩

/-- An odd point writes back rows 512 (t / 2) … of that array. -/
theorem pool_flushed_eq (c : Dev nD) (x : XIdx → EReal)
    (hV : ∀ (r : Fin 16384) (s : Fin 3136), (V c main_v0 : S16384x3136.Idx → EReal) (ix2 r s) = xAt x ⟨r.val / 256, by omega⟩ ⟨r.val % 256, by omega⟩ s)
    (t : Fin cfg0.N) (hf : (cfg0.win 1).flush t = true) :
    (dat0 V c).flushed 1 t = ((cfg0.win 1).blk t).view.read (Elt Ideal) (pooledRows x) := by
  have h1 : t.val % 2 = 1 := (flush0_1 t).mp hf
  have hN : cfg0.N = 64 := N_0
  have ht : t.val < 64 := hN ▸ t.isLt
  show (cfg0.win 1).cut (grid0.coords t) ((dat0 V c).after 1 t) = _
  rw [after0_1]
  unfold resAt
  rw [if_neg (by omega)]
  unfold sumTile0
  funext y
  obtain ⟨p, q, rfl⟩ : ∃ (p : Fin 512) (q : Fin 1), y = ix2 p q := ⟨y 0, y 1, eq_ix2 y⟩
  obtain rfl : q = 0 := Subsingleton.elim _ _
  obtain ⟨g0, g1, -, -, e0, e1⟩ := pool_idx_facts t
  obtain ⟨g0', g1', -⟩ := pool_idx_facts ⟨t.val - 1, Nat.lt_of_le_of_lt (Nat.sub_le _ _) t.isLt⟩
  have hp : p.val < 512 := p.isLt
  have hE : ((cfg0.win 1).blk t).view.emb (ix2 p (0 : Fin 1)) = ix2 (⟨512 * (t.val / 2) + p.val, by omega⟩ : Fin 16384) (0 : Fin 1) := by
    funext a; apply Fin.ext
    match a with
    | ⟨0, _⟩ => show win0_1.index t (0 : Fin 2) * 512 + 1 * p.val = 512 * (t.val / 2) + p.val; omega
    | ⟨1, _⟩ => show win0_1.index t (1 : Fin 2) * 1 + 1 * 0 = 0; omega
  show k0_pay3 (k0_pay2 (grid0.coords t) (tileAt V c t)
        (k0_pay2 (grid0.coords ⟨t.val - 1, Nat.lt_of_le_of_lt (Nat.sub_le _ _) t.isLt⟩)
          (tileAt V c ⟨t.val - 1, Nat.lt_of_le_of_lt (Nat.sub_le _ _) t.isLt⟩) (k0_pay1 (F := Ideal)))) (ix2 p (0 : Fin 1))
      = pooledRows x (((cfg0.win 1).blk t).view.emb (ix2 p (0 : Fin 1)))
  rw [hE]
  refine Cert.RefMath.pool_point (grid0.coords ⟨t.val - 1, Nat.lt_of_le_of_lt (Nat.sub_le _ _) t.isLt⟩) (grid0.coords t)
    (by rw [g1']; show (t.val - 1) % 2 = 0; omega) (by rw [g1]; exact h1)
    (tileAt V c ⟨t.val - 1, Nat.lt_of_le_of_lt (Nat.sub_le _ _) t.isLt⟩) (tileAt V c t)
    (fun s => xAt x ⟨(512 * (t.val / 2) + p.val) / 256, by omega⟩ ⟨(512 * (t.val / 2) + p.val) % 256, by omega⟩ s) p ?_ ?_
  · intro l
    have hl : l.val < 2048 := l.isLt
    exact (tileAt_apply V c ⟨t.val - 1, Nat.lt_of_le_of_lt (Nat.sub_le _ _) t.isLt⟩ p l (by show l.val + 2048 * ((t.val - 1) % 2) < 3136; omega)
      ⟨512 * (t.val / 2) + p.val, by omega⟩ ⟨l.val, by omega⟩ (by show 512 * (t.val / 2) + p.val = 512 * ((t.val - 1) / 2) + p.val; omega)
      (by show l.val = 2048 * ((t.val - 1) % 2) + l.val; omega)).trans (hV _ _)
  · intro l h
    exact (tileAt_apply V c t p l (by omega) ⟨512 * (t.val / 2) + p.val, by omega⟩ ⟨l.val + 2048, h⟩ rfl
      (by show l.val + 2048 = 2048 * (t.val % 2) + l.val; omega)).trans (hV _ _)

/-- An index of the result array is in point t's block iff each coordinate is in the block's range on its axis. -/
theorem pool_mem_blk (t : Fin cfg0.N) (i : S16384x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v1).slice (win0_1.rect t)).set ↔ _
  rw [View.set_slice_whole, Rect.mem_set_unit]
  exact Iff.rfl

/-- Row R lies in the block written back at the odd point 2 (R / 512) + 1. -/
theorem pool_cover (i : S16384x1.Idx) : ∃ t : Fin cfg0.N, (cfg0.win 1).flush t = true ∧ i ∈ ((cfg0.win 1).blk t).view.set := by
  have hN : cfg0.N = 64 := N_0
  have hi0 : (i 0).val < 16384 := idx2_lt0 i
  have hi1 : (i 1).val < 1 := idx2_lt1 i
  obtain ⟨-, -, -, -, e0, e1⟩ := pool_idx_facts (⟨2 * ((i 0).val / 512) + 1, by rw [hN]; omega⟩ : Fin cfg0.N)
  refine ⟨⟨2 * ((i 0).val / 512) + 1, by rw [hN]; omega⟩, (flush0_1 _).mpr (by show (2 * ((i 0).val / 512) + 1) % 2 = 1; omega), ?_⟩
  rw [pool_mem_blk]
  intro a
  match a with
  | ⟨0, _⟩ =>
    show win0_1.index ⟨2 * ((i 0).val / 512) + 1, _⟩ (0 : Fin 2) * 512 ≤ (i 0).val
      ∧ (i 0).val < win0_1.index ⟨2 * ((i 0).val / 512) + 1, _⟩ (0 : Fin 2) * 512 + 512
    rw [e0]; show (2 * ((i 0).val / 512) + 1) / 2 * 512 ≤ (i 0).val ∧ (i 0).val < (2 * ((i 0).val / 512) + 1) / 2 * 512 + 512; omega
  | ⟨1, _⟩ =>
    show win0_1.index ⟨2 * ((i 0).val / 512) + 1, _⟩ (1 : Fin 2) * 1 ≤ (i 1).val
      ∧ (i 1).val < win0_1.index ⟨2 * ((i 0).val / 512) + 1, _⟩ (1 : Fin 2) * 1 + 1
    rw [e1]; omega

/-- After the pooling region its result array holds, at row R, the pooled feature of sample R / 256, channel R % 256,
    whenever the array it reads is the activation flattened sample-and-channel by plane. -/
theorem region0_out (c : Dev nD) (x : XIdx → EReal)
    (hV : ∀ (r : Fin 16384) (s : Fin 3136), (V c main_v0 : S16384x3136.Idx → EReal) (ix2 r s) = xAt x ⟨r.val / 256, by omega⟩ ⟨r.val % 256, by omega⟩ s) :
    ((dat0 V c).arrAt 1 cfg0.N : S16384x1.Idx → EReal)
      = fun i => pooled x ⟨(i 0).val / 256, by have := idx2_lt0 i; omega⟩ ⟨(i 0).val % 256, by omega⟩ :=
  (dat0 V c).arrAt_eq_of_cover 1 (pooledRows x) (fun t hf => pool_flushed_eq V c x hV t hf) pool_cover

end Cert.ReferenceIdeal.Ref

end
-- ==== Proof.RefValueMlp.lean ====
/-
  The second region's result array after its one write-back: the gridless region stages every operand whole, so each
  window's block at the one point is its array as the region finds it, and what the body leaves in the result's staging
  buffer — its one whole store — is the body's pure term of those five arrays; the write-back's block is the whole result
  array, so the array ends holding that term.
-/
import proofs.«119059_g2000108762910826_pallasbulk_11_6_alg».proof.Proof.RefRegion1
import Idealize.ShloMosaic.Lib.Pipeline.Value

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

section Region1Value

variable (V : (c : Dev nD) → (b : Ref sig .tc) → Buf (Elt F) ((c : Thread nD τ).loc b))

/-- The zero offsets of a whole-buffer rectangle, as a constant function. -/
theorem hz1 : (![0, 0] : Fin 2 → Nat) = fun _ => 0 := funext fun a => by fin_cases a <;> rfl

/-! ## Each window's block at the one point is its whole array -/

theorem iblk1_eq0 (c : Dev nD) (t : Fin cfg1.N) : (iblk1 V c 0 t : S64x256.Idx → Elt F .f32) = V c main_v2 := by
  unfold iblk1
  exact Memref.read_access_unit_zero (Elt F) main_v2 (funext fun a => Nat.zero_mul _) _ (V c main_v2)

theorem iblk1_eq1 (c : Dev nD) (t : Fin cfg1.N) : (iblk1 V c 1 t : S256x256.Idx → Elt F .f32) = V c main_arg1 := by
  unfold iblk1
  exact Memref.read_access_unit_zero (Elt F) main_arg1 (funext fun a => Nat.zero_mul _) _ (V c main_arg1)

theorem iblk1_eq2 (c : Dev nD) (t : Fin cfg1.N) : (iblk1 V c 2 t : S1x256.Idx → Elt F .f32) = V c main_v3 := by
  unfold iblk1
  exact Memref.read_access_unit_zero (Elt F) main_v3 (funext fun a => Nat.zero_mul _) _ (V c main_v3)

theorem iblk1_eq3 (c : Dev nD) (t : Fin cfg1.N) : (iblk1 V c 3 t : S256x1.Idx → Elt F .f32) = V c main_arg3 := by
  unfold iblk1
  exact Memref.read_access_unit_zero (Elt F) main_arg3 (funext fun a => Nat.zero_mul _) _ (V c main_arg3)

theorem iblk1_eq4 (c : Dev nD) (t : Fin cfg1.N) : (iblk1 V c 4 t : S1x1.Idx → Elt F .f32) = V c main_v4 := by
  unfold iblk1
  exact Memref.read_access_unit_zero (Elt F) main_v4 (funext fun a => Nat.zero_mul _) _ (V c main_v4)

/-! ## The result array -/

/-- The body's term of the five arrays as the region finds them. -/
abbrev mlpOf (c : Dev nD) : S64x1.Idx → Elt F .f32 :=
  k1_pay1 (V c main_v2) (V c main_arg1) (V c main_v3) (V c main_arg3) (V c main_v4)

/-- What the one point writes back is the whole-array read of that term. -/
theorem flushed1_5_eq (c : Dev nD) (t : Fin cfg1.N) :
    (dat1 V c).flushed 5 t = ((cfg1.win 5).blk t).view.read (Elt F) (mlpOf V c) := by
  show (cfg1.win 5).cut (cfg1.grid.coords t) ((dat1 V c).after 5 t) = _
  rw [after1_5]
  unfold mlpOut
  rw [View.canon_unit_zero hz1]
  simp only [View.ld_unit_zero (S := S64x256) hz1, View.ld_unit_zero (S := S256x256) hz1, View.ld_unit_zero (S := S1x256) hz1,
    View.ld_unit_zero (S := S256x1) hz1, View.ld_unit_zero (S := S1x1) hz1]
  rw [iblk1_eq0, iblk1_eq1, iblk1_eq2, iblk1_eq3, iblk1_eq4]
  exact (Memref.read_access_unit_zero (Elt F) main_v5 (funext fun a => Nat.zero_mul _) _ (mlpOf V c)).symm

/-- Every index of the result array is in the one point's block. -/
theorem cover1_5 (i : S64x1.Idx) : ∃ t : Fin cfg1.N, (cfg1.win 5).flush t = true ∧ i ∈ ((cfg1.win 5).blk t).view.set := by
  refine ⟨t1_0, flush1_5 t1_0, ?_⟩
  show i ∈ ((View.whole main_v5).slice (win1_5.rect t1_0)).set
  rw [View.set_slice_whole, Rect.mem_set_unit]
  intro a
  have h0 : (i 0 : Nat) < 64 := (i 0).isLt
  have h1 : (i 1 : Nat) < 1 := (i 1).isLt
  match a with
  | ⟨0, _⟩ => show 0 * 64 ≤ (i 0 : Nat) ∧ (i 0 : Nat) < 0 * 64 + 64; omega
  | ⟨1, _⟩ => show 0 * 1 ≤ (i 1 : Nat) ∧ (i 1 : Nat) < 0 * 1 + 1; omega

/-- The result array after the region: the body's term of the five arrays as the region finds them. -/
theorem region1_out (c : Dev nD) :
    (dat1 V c).arrAt 5 cfg1.N
      = (k1_pay1 (V c main_v2) (V c main_arg1) (V c main_v3) (V c main_arg3) (V c main_v4) : S64x1.Idx → Elt F .f32) :=
  (dat1 V c).arrAt_eq_of_cover 5 (mlpOf V c) (fun t _ => flushed1_5_eq V c t) cover1_5

end Region1Value

end Cert.ReferenceIdeal.Ref

end
-- ==== Proof.RefValue.lean ====
/-
  The reference program's result, in closed form: after its run the result array holds `alpha` of the argument arrays.

  The pooled column the first region leaves has, at row 256·n + k, the scaled plane sum `pooled x n k`; reshaped to
  64 × 256 that is entry (n, k). The second region's one store is the perceptron's pure term of its five whole operands,
  which at those operands is `alpha`.
-/
import proofs.«119059_g2000108762910826_pallasbulk_11_6_alg».proof.Proof.Gen.ReferenceIdeal.Launch
import proofs.«119059_g2000108762910826_pallasbulk_11_6_alg».proof.Proof.Gen.ReferenceIdeal.Skeleton
import proofs.«119059_g2000108762910826_pallasbulk_11_6_alg».proof.Proof.Gen.ReferenceIdeal.Points
import proofs.«119059_g2000108762910826_pallasbulk_11_6_alg».proof.Proof.RefValueHost
import proofs.«119059_g2000108762910826_pallasbulk_11_6_alg».proof.Proof.RefValuePool
import proofs.«119059_g2000108762910826_pallasbulk_11_6_alg».proof.Proof.RefValueMlp
import proofs.«119059_g2000108762910826_pallasbulk_11_6_alg».proof.Proof.RefMathGlue
import proofs.«119059_g2000108762910826_pallasbulk_11_6_alg».proof.Proof.RefMathReshape
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Idealize.ShloMosaic.StableHlo Cert.AlphaSpec

variable (m : (ℓ : Loc nD τ sig) → Buf (Elt Ideal) ℓ)

/-- The perceptron region finds the pooled features as a 64 × 256 matrix of scaled plane sums. -/
theorem V3_pooled_apply (c : Dev nD) (n : Fin 64) (k : Fin 256) :
    (V3 m c main_v2 : S64x256.Idx → EReal) (ix2 n k) = pooled (m ((c : Thread nD τ).loc main_arg0)) n k := by
  rw [V3_pooled, Cert.RefMath.reshape_col_apply, W2_pool, region0_out (V1 m) c (m ((c : Thread nD τ).loc main_arg0)) (V1_x_apply m c)]
  have hk := k.isLt
  have hn := n.isLt
  show pooled _ ⟨(n.val * 256 + k.val) / 256, _⟩ ⟨(n.val * 256 + k.val) % 256, _⟩ = pooled _ n k
  congr 1
  · exact Fin.ext (by show (n.val * 256 + k.val) / 256 = n.val; omega)
  · exact Fin.ext (by show (n.val * 256 + k.val) % 256 = k.val; omega)

theorem V3_b1_apply (c : Dev nD) (j : Fin 256) :
    (V3 m c main_v3 : S1x256.Idx → EReal) (ix2 (0 : Fin 1) j) = (m ((c : Thread nD τ).loc main_arg2) : S256.Idx → EReal) (ix1 j) := by
  rw [V3_b1, Cert.RefMath.reshape_row_apply, W2_arg2]

theorem V3_b2_apply (c : Dev nD) :
    (V3 m c main_v4 : S1x1.Idx → EReal) (ix2 (0 : Fin 1) (0 : Fin 1)) = (m ((c : Thread nD τ).loc main_arg4) : S1.Idx → EReal) (ix1 (0 : Fin 1)) := by
  rw [V3_b2, Cert.RefMath.reshape_one_apply, W2_arg4]

/-- After the run the result array holds `alpha` of the argument arrays. -/
theorem W4_out_eq (c : Dev nD) :
    (W4 m c (Proc.devRef .tc main_v5) : S64x1.Idx → EReal)
      = alpha (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_out, region1_out (V3 m) c]
  rw [show V3 m c main_arg1 = m ((c : Thread nD τ).loc main_arg1) from W3_arg1 m c,
    show V3 m c main_arg3 = m ((c : Thread nD τ).loc main_arg3) from W3_arg3 m c]
  exact Cert.RefMath.mlp_alpha _ _ _ _ _ _ _ _ (V3_pooled_apply m c) (V3_b1_apply m c) (V3_b2_apply m c)

/-- THE REFERENCE'S RUN WITH ITS VALUE: every weakly fair execution terminates, the result array ends at `alpha` of the
    argument arrays, and the argument arrays end as launched. -/
theorem ref_run (ρ : Dev nD → PrngReg) :
    θ_run defs (onTc (τ := τ) (main (F := Ideal))) ⟨m, fun _ => 0, ρ⟩ (fun r => ∀ c : Dev nD,
      r.2.mem ((c.tc : Thread nD τ).loc main_v5)
          = alpha (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (W4_out_eq m c),
      (h c _ (mem_uc main_arg0 (by decide))).trans (W4_arg0 m c),
      (h c _ (mem_uc main_arg1 (by decide))).trans (W4_arg1 m c),
      (h c _ (mem_uc main_arg2 (by decide))).trans (W4_arg2 m c),
      (h c _ (mem_uc main_arg3 (by decide))).trans (W4_arg3 m c),
      (h c _ (mem_uc main_arg4 (by decide))).trans (W4_arg4 m c)⟩)
    (run m ρ Cert.RefMath.masked_read)

end Cert.ReferenceIdeal.Ref

end
-- ==== Proof.lean ====
/-
  The certificate's claim.

  Both idealized programs compute, from an activation x [64, 256, 56, 56] and a two-layer perceptron's parameters,
      alpha(n) = 1 / (1 + e^(−((∑ j, max((∑ k, pooled(n,k) · w1(k,j)) + b1(j), 0) · w2(j,0)) + b2(0)))),
      pooled(n,k) = (∑ over the 3136 spatial positions of x(n,k,·)) · c,
  with the same single-precision literal c (module Spec). The kernel does it in one grid region of eight points, eight
  samples each: a sum over the flattened plane axis of a channels-last view, a matrix product, a bias, a clamp, a weighted
  row sum, a bias, the logistic function. The reference does it in two regions: a pooling kernel on a 32 × 2 grid that sums
  each 3136-long plane in two tiles of 2048 columns — the second cut at the array's end, its columns past the end masked —
  into an accumulator kept across the two tiles and scaled after the second; then the perceptron on whole operands, its
  second layer a matrix product with a one-column matrix. The two sides meet at `alpha`: a plane sum split at column 2048
  is the plane sum (addition on the extended reals is commutative and associative, so no finiteness is needed), and a
  product with a one-column matrix is the weighted row sum.

  The kernel's frames are the generated ones; its value is KernelValue's run. The reference has three frames' worth of
  hand proof: both regions' body obligations, the run over @main's four segments, and the closed form of what it leaves.
  The idealization rewrote nothing, so `preserves` has nothing to state.
-/
import proofs.«119059_g2000108762910826_pallasbulk_11_6_alg».proof.Defs
import proofs.«119059_g2000108762910826_pallasbulk_11_6_alg».proof.Proof.Gen.Kernel
import proofs.«119059_g2000108762910826_pallasbulk_11_6_alg».proof.Proof.Gen.Kernel.Skeleton
import proofs.«119059_g2000108762910826_pallasbulk_11_6_alg».proof.Proof.Gen.Kernel.Launch
import proofs.«119059_g2000108762910826_pallasbulk_11_6_alg».proof.Proof.Gen.Kernel.Points
import proofs.«119059_g2000108762910826_pallasbulk_11_6_alg».proof.Proof.Gen.Kernel.Frame
import proofs.«119059_g2000108762910826_pallasbulk_11_6_alg».proof.Proof.Gen.KernelIdeal
import proofs.«119059_g2000108762910826_pallasbulk_11_6_alg».proof.Proof.Gen.KernelIdeal.Skeleton
import proofs.«119059_g2000108762910826_pallasbulk_11_6_alg».proof.Proof.Gen.KernelIdeal.Launch
import proofs.«119059_g2000108762910826_pallasbulk_11_6_alg».proof.Proof.Gen.KernelIdeal.Points
import proofs.«119059_g2000108762910826_pallasbulk_11_6_alg».proof.Proof.Gen.KernelIdeal.Frame
import proofs.«119059_g2000108762910826_pallasbulk_11_6_alg».proof.Proof.Gen.ReferenceIdeal
import proofs.«119059_g2000108762910826_pallasbulk_11_6_alg».proof.Proof.Gen.ReferenceIdeal.Skeleton
import proofs.«119059_g2000108762910826_pallasbulk_11_6_alg».proof.Proof.Gen.ReferenceIdeal.Launch
import proofs.«119059_g2000108762910826_pallasbulk_11_6_alg».proof.Proof.Gen.ReferenceIdeal.Regions
import proofs.«119059_g2000108762910826_pallasbulk_11_6_alg».proof.Proof.Gen.ReferenceIdeal.Points
import proofs.«119059_g2000108762910826_pallasbulk_11_6_alg».proof.Proof.Gen.Pre_finite_inputs
import proofs.«119059_g2000108762910826_pallasbulk_11_6_alg».proof.Proof.KernelValue
import proofs.«119059_g2000108762910826_pallasbulk_11_6_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference: its run with the result dropped. -/
theorem frame_ri : Cert.frame_ReferenceIdeal := fun m ρ _ =>
  (θ_run Cert.ReferenceIdeal.defs _ _).mono (fun _ h c => (h c).2) (Cert.ReferenceIdeal.Ref.ref_run m ρ)

/-- The idealization rewrote no operation. -/
theorem preserves : Cert.preserves_Kernel_KernelIdeal := trivial

/-- From memories agreeing on the arguments both idealized programs end with the result array at `alpha` of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Ref.ref_run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
